-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x258x258 : Shape := ⟨3, ![16, 258, 258]⟩
abbrev S128x1x3x3 : Shape := ⟨4, ![128, 1, 3, 3]⟩
abbrev S9x128 : Shape := ⟨2, ![9, 128]⟩
abbrev S_ : Shape := ⟨0, ![]⟩

class Facts : Prop where
  bcast_S_S16x258x258 : S_.BroadcastsInDim S16x258x258 (![] : Fin 0 → Fin S16x258x258.rank)
  reducesTo_S16x258x258_S_d0_1_2 : S16x258x258.ReducesTo [0, 1, 2] S_
  h_S_ : 0 < S_.numel
  bcast_S_S128x1x3x3 : S_.BroadcastsInDim S128x1x3x3 (![] : Fin 0 → Fin S128x1x3x3.rank)
  reducesTo_S128x1x3x3_S_d0_1_2_3 : S128x1x3x3.ReducesTo [0, 1, 2, 3] S_
  bcast_S_S9x128 : S_.BroadcastsInDim S9x128 (![] : Fin 0 → Fin S9x128.rank)
  reducesTo_S9x128_S_d0_1 : S9x128.ReducesTo [0, 1] S_

variable [Facts]

def fn {F : FTy → Type} [FloatOps F] (main_arg0 : FVec F S16x258x258 .f32) (main_arg1 : FVec F S128x1x3x3 .f32) (main_arg2 : FVec F S9x128 .f32) : IVec S_ 1 :=
  let main_v0 : FVec F S16x258x258 .f32 := Host.absf main_arg0
  let main_cst : FVec F S_ .f32 := constant S_ .f32 0x7F800000#32
  let main_v1 : FVec F S16x258x258 .f32 := broadcastInDim S16x258x258 ![] bcast_S_S16x258x258 main_cst
  let main_v2 : IVec S16x258x258 1 := cmpf .olt main_v0 main_v1
  let main_c : IVec S_ 1 := constantI S_ 1 1#1
  let main_v3 : IVec S_ 1 := (fun x v => Host.reduce IntOp.andi x v reducesTo_S16x258x258_S_d0_1_2 h_S_) main_v2 main_c
  let main_v4 : FVec F S128x1x3x3 .f32 := Host.absf main_arg1
  let main_cst_0 : FVec F S_ .f32 := constant S_ .f32 0x7F800000#32
  let main_v5 : FVec F S128x1x3x3 .f32 := broadcastInDim S128x1x3x3 ![] bcast_S_S128x1x3x3 main_cst_0
  let main_v6 : IVec S128x1x3x3 1 := cmpf .olt main_v4 main_v5
  let main_c_1 : IVec S_ 1 := constantI S_ 1 1#1
  let main_v7 : IVec S_ 1 := (fun x v => Host.reduce IntOp.andi x v reducesTo_S128x1x3x3_S_d0_1_2_3 h_S_) main_v6 main_c_1
  let main_v8 : IVec S_ 1 := andi main_v3 main_v7
  let main_v9 : FVec F S9x128 .f32 := Host.absf main_arg2
  let main_cst_2 : FVec F S_ .f32 := constant S_ .f32 0x7F800000#32
  let main_v10 : FVec F S9x128 .f32 := broadcastInDim S9x128 ![] bcast_S_S9x128 main_cst_2
  let main_v11 : IVec S9x128 1 := cmpf .olt main_v9 main_v10
  let main_c_3 : IVec S_ 1 := constantI S_ 1 1#1
  let main_v12 : IVec S_ 1 := (fun x v => Host.reduce IntOp.andi x v reducesTo_S9x128_S_d0_1 h_S_) main_v11 main_c_3
  let main_v13 : IVec S_ 1 := andi main_v8 main_v12
  main_v13
-- ==== Kernel.lean ====
abbrev S16x258x258 : Shape := ⟨3, ![16, 258, 258]⟩
abbrev S128x1x3x3 : Shape := ⟨4, ![128, 1, 3, 3]⟩
abbrev S9x128 : Shape := ⟨2, ![9, 128]⟩
abbrev S1x128 : Shape := ⟨2, ![1, 128]⟩
abbrev S128 : Shape := ⟨1, ![128]⟩
abbrev S_ : Shape := ⟨0, ![]⟩
abbrev S16x256x256 : Shape := ⟨3, ![16, 256, 256]⟩
abbrev S16x256x256x1 : Shape := ⟨4, ![16, 256, 256, 1]⟩
abbrev S16x256x256x9 : Shape := ⟨4, ![16, 256, 256, 9]⟩
abbrev S256x256x16x9 : Shape := ⟨4, ![256, 256, 16, 9]⟩
abbrev S256x256x16x128 : Shape := ⟨4, ![256, 256, 16, 128]⟩
abbrev S8x256x8x9 : Shape := ⟨4, ![8, 256, 8, 9]⟩
abbrev S8x256x8x128 : Shape := ⟨4, ![8, 256, 8, 128]⟩
abbrev S16384x9 : Shape := ⟨2, ![16384, 9]⟩
abbrev S16384x128 : Shape := ⟨2, ![16384, 128]⟩
abbrev S1x1x1x128 : Shape := ⟨4, ![1, 1, 1, 128]⟩
abbrev S16x256x256x128 : Shape := ⟨4, ![16, 256, 256, 128]⟩

abbrev nBuf : Space → Nat
  | .hbm => 41
  | .vmem => 6
  | .smem => 0
  | _ => 0

abbrev bufTy : (tb : Table) → Fin (tcTables nBuf tb) → BufTy
  | .hbm, ⟨0, _⟩ => ⟨S16x258x258, .f32⟩
  | .hbm, ⟨1, _⟩ => ⟨S128x1x3x3, .f32⟩
  | .hbm, ⟨2, _⟩ => ⟨S9x128, .f32⟩
  | .hbm, ⟨3, _⟩ => ⟨S9x128, .f32⟩
  | .hbm, ⟨4, _⟩ => ⟨S1x128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S16x256x256, .f32⟩
  | .hbm, ⟨20, _⟩ => ⟨S16x256x256, .f32⟩
  | .hbm, ⟨21, _⟩ => ⟨S16x256x256, .f32⟩
  | .hbm, ⟨22, _⟩ => ⟨S16x256x256, .f32⟩
  | .hbm, ⟨23, _⟩ => ⟨S16x256x256, .f32⟩
  | .hbm, ⟨24, _⟩ => ⟨S16x256x256, .f32⟩
  | .hbm, ⟨25, _⟩ => ⟨S16x256x256, .f32⟩
  | .hbm, ⟨26, _⟩ => ⟨S16x256x256, .f32⟩
  | .hbm, ⟨27, _⟩ => ⟨S16x256x256, .f32⟩
  | .hbm, ⟨28, _⟩ => ⟨S16x256x256x1, .f32⟩
  | .hbm, ⟨29, _⟩ => ⟨S16x256x256x1, .f32⟩
  | .hbm, ⟨30, _⟩ => ⟨S16x256x256x1, .f32⟩
  | .hbm, ⟨31, _⟩ => ⟨S16x256x256x1, .f32⟩
  | .hbm, ⟨32, _⟩ => ⟨S16x256x256x1, .f32⟩
  | .hbm, ⟨33, _⟩ => ⟨S16x256x256x1, .f32⟩
  | .hbm, ⟨34, _⟩ => ⟨S16x256x256x1, .f32⟩
  | .hbm, ⟨35, _⟩ => ⟨S16x256x256x1, .f32⟩
  | .hbm, ⟨36, _⟩ => ⟨S16x256x256x1, .f32⟩
  | .hbm, ⟨37, _⟩ => ⟨S16x256x256x9, .f32⟩
  | .hbm, ⟨38, _⟩ => ⟨S256x256x16x9, .f32⟩
  | .hbm, ⟨39, _⟩ => ⟨S256x256x16x128, .f32⟩
  | .hbm, ⟨40, _⟩ => ⟨S16x256x256x128, .f32⟩
  | .local _ .vmem, ⟨0, _⟩ => ⟨S8x256x8x9, .f32⟩
  | .local _ .vmem, ⟨1, _⟩ => ⟨S8x256x8x9, .f32⟩
  | .local _ .vmem, ⟨2, _⟩ => ⟨S9x128, .f32⟩
  | .local _ .vmem, ⟨3, _⟩ => ⟨S1x128, .f32⟩
  | .local _ .vmem, ⟨4, _⟩ => ⟨S8x256x8x128, .f32⟩
  | .local _ .vmem, ⟨5, _⟩ => ⟨S8x256x8x128, .f32⟩
  | _, _ => ⟨S16x258x258, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S8x256x8x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S9x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x256x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S128x1x3x3_S9x128 : S128x1x3x3.ShapeCasts S9x128
  slices_S9x128_S1x128_0_0 : S9x128.Slices ![0, 0] S1x128
  shapeCasts_S1x128_S128 : S1x128.ShapeCasts S128
  bcast_S_S128 : S_.BroadcastsInDim S128 (![] : Fin 0 → Fin S128.rank)
  reducesTo_S9x128_S128_d0 : S9x128.ReducesTo [0] S128
  h_S_ : 0 < S_.numel
  shapeCasts_S128_S1x128 : S128.ShapeCasts S1x128
  slices_S16x258x258_S16x256x256_0_0_0 : S16x258x258.Slices ![0, 0, 0] S16x256x256
  slices_S16x258x258_S16x256x256_0_0_1 : S16x258x258.Slices ![0, 0, 1] S16x256x256
  slices_S16x258x258_S16x256x256_0_0_2 : S16x258x258.Slices ![0, 0, 2] S16x256x256
  slices_S16x258x258_S16x256x256_0_1_0 : S16x258x258.Slices ![0, 1, 0] S16x256x256
  slices_S16x258x258_S16x256x256_0_1_1 : S16x258x258.Slices ![0, 1, 1] S16x256x256
  slices_S16x258x258_S16x256x256_0_1_2 : S16x258x258.Slices ![0, 1, 2] S16x256x256
  slices_S16x258x258_S16x256x256_0_2_0 : S16x258x258.Slices ![0, 2, 0] S16x256x256
  slices_S16x258x258_S16x256x256_0_2_1 : S16x258x258.Slices ![0, 2, 1] S16x256x256
  slices_S16x258x258_S16x256x256_0_2_2 : S16x258x258.Slices ![0, 2, 2] S16x256x256
  bcast_S16x256x256_S16x256x256x1_0_1_2 : S16x256x256.BroadcastsInDim S16x256x256x1 (![0, 1, 2] : Fin 3 → Fin S16x256x256x1.rank)
  concatenates_S16x256x256x1_S16x256x256x1_S16x256x256x1_S16x256x256x1_S16x256x256x1_S16x256x256x1_S16x256x256x1_S16x256x256x1_S16x256x256x1_S16x256x256x9_d3 : Shape.Concatenates [S16x256x256x1, S16x256x256x1, S16x256x256x1, S16x256x256x1, S16x256x256x1, S16x256x256x1, S16x256x256x1, S16x256x256x1, S16x256x256x1] S16x256x256x9 3
  transposes_S16x256x256x9_S256x256x16x9_1_2_0_3 : S16x256x256x9.Transposes [1, 2, 0, 3] S256x256x16x9
  inb_S8x256x8x9_S8x256x8x9_0_0_0_0 : ∀ a, (![0, 0, 0, 0] : Fin 4 → Nat) a + S8x256x8x9.size a ≤ S8x256x8x9.size a
  h_S8x256x8x9 : 0 < S8x256x8x9.numel
  shapeCasts_S8x256x8x9_S8x256x8x9 : S8x256x8x9.ShapeCasts S8x256x8x9
  shapeCasts_S8x256x8x9_S16384x9 : S8x256x8x9.ShapeCasts S16384x9
  bitsLt_bf16_f32 : FTy.bits .bf16 < FTy.bits .f32
  inb_S9x128_S9x128_0_0 : ∀ a, (![0, 0] : Fin 2 → Nat) a + S9x128.size a ≤ S9x128.size a
  h_S9x128 : 0 < S9x128.numel
  shapeCasts_S9x128_S9x128 : S9x128.ShapeCasts S9x128
  shapeCasts_S16384x128_S8x256x8x128 : S16384x128.ShapeCasts S8x256x8x128
  inb_S1x128_S1x128_0_0 : ∀ a, (![0, 0] : Fin 2 → Nat) a + S1x128.size a ≤ S1x128.size a
  h_S1x128 : 0 < S1x128.numel
  shapeCasts_S128_S1x1x1x128 : S128.ShapeCasts S1x1x1x128
  broadcasts_S1x1x1x128_S8x256x8x128 : S1x1x1x128.Broadcasts S8x256x8x128
  inb_S8x256x8x128_S8x256x8x128_0_0_0_0 : ∀ a, (![0, 0, 0, 0] : Fin 4 → Nat) a + S8x256x8x128.size a ≤ S8x256x8x128.size a
  h_S8x256x8x128 : 0 < S8x256x8x128.numel
  shapeCasts_S256x256x16x128_S16x256x256x128 : S256x256x16x128.ShapeCasts S16x256x256x128
  dot_S16384x9_S9x128_S16384x128_1_0_0_1_n_n_wf : DotDims.WF S16384x9 S9x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x8x9.size a ≤ S256x256x16x9.size a
  hwx0_0 : ∀ i : grid0.Coords, EltTy.bits .f32 = 32 ∨ (Rect.block (s := S256x256x16x9) S8x256x8x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128.size a ≤ S9x128.size a
  hwx0_1 : ∀ i : grid0.Coords, EltTy.bits .f32 = 32 ∨ (Rect.block (s := S9x128) S9x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x8x128.size a ≤ S256x256x16x128.size a
  hwx0_3 : ∀ i : grid0.Coords, EltTy.bits .f32 = 32 ∨ (Rect.block (s := S256x256x16x128) S8x256x8x128.size (cc0_transform_3 i) (hinb0_3 i)).WholeWords (EltTy.packing .f32)

variable [Facts₀]

def dot_S16384x9_S9x128_S16384x128_1_0_0_1_n_n : DotDims S16384x9 S9x128 S16384x128 where
  lhsContracting := [1]
  rhsContracting := [0]
  lhsNonContracting := [0]
  rhsNonContracting := [1]
  lhsBatch := []
  rhsBatch := []
  wf := dot_S16384x9_S9x128_S16384x128_1_0_0_1_n_n_wf

abbrev win0_0 : Pipeline.Window sig grid0 :=
  Pipeline.Window.ofSpec (Memref.whole main_v31) S8x256x8x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S9x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S8x256x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x258x258 : Shape := ⟨3, ![16, 258, 258]⟩
abbrev S128x1x3x3 : Shape := ⟨4, ![128, 1, 3, 3]⟩
abbrev S9x128 : Shape := ⟨2, ![9, 128]⟩
abbrev S16x256x256 : Shape := ⟨3, ![16, 256, 256]⟩
abbrev S16x256x256x1 : Shape := ⟨4, ![16, 256, 256, 1]⟩
abbrev S16x256x256x9 : Shape := ⟨4, ![16, 256, 256, 9]⟩
abbrev S256x256x16x9 : Shape := ⟨4, ![256, 256, 16, 9]⟩
abbrev S1048576x9 : Shape := ⟨2, ![1048576, 9]⟩
abbrev S1x128 : Shape := ⟨2, ![1, 128]⟩
abbrev S128 : Shape := ⟨1, ![128]⟩
abbrev S_ : Shape := ⟨0, ![]⟩
abbrev S1048576x128 : Shape := ⟨2, ![1048576, 128]⟩
abbrev S16x256x256x128 : Shape := ⟨4, ![16, 256, 256, 128]⟩

abbrev nBuf : Space → Nat
  | .hbm => 48
  | .vmem => 0
  | .smem => 0
  | _ => 0

abbrev bufTy : (tb : Table) → Fin (tcTables nBuf tb) → BufTy
  | .hbm, ⟨0, _⟩ => ⟨S16x258x258, .f32⟩
  | .hbm, ⟨1, _⟩ => ⟨S128x1x3x3, .f32⟩
  | .hbm, ⟨2, _⟩ => ⟨S9x128, .f32⟩
  | .hbm, ⟨3, _⟩ => ⟨S9x128, .f32⟩
  | .hbm, ⟨4, _⟩ => ⟨S16x256x256, .f32⟩
  | .hbm, ⟨5, _⟩ => ⟨S16x256x256, .f32⟩
  | .hbm, ⟨6, _⟩ => ⟨S16x256x256, .f32⟩
  | .hbm, ⟨7, _⟩ => ⟨S16x256x256, .f32⟩
  | .hbm, ⟨8, _⟩ => ⟨S16x256x256, .f32⟩
  | .hbm, ⟨9, _⟩ => ⟨S16x256x256, .f32⟩
  | .hbm, ⟨10, _⟩ => ⟨S16x256x256, .f32⟩
  | .hbm, ⟨11, _⟩ => ⟨S16x256x256, .f32⟩
  | .hbm, ⟨12, _⟩ => ⟨S16x256x256, .f32⟩
  | .hbm, ⟨13, _⟩ => ⟨S16x256x256x1, .f32⟩
  | .hbm, ⟨14, _⟩ => ⟨S16x256x256x1, .f32⟩
  | .hbm, ⟨15, _⟩ => ⟨S16x256x256x1, .f32⟩
  | .hbm, ⟨16, _⟩ => ⟨S16x256x256x1, .f32⟩
  | .hbm, ⟨17, _⟩ => ⟨S16x256x256x1, .f32⟩
  | .hbm, ⟨18, _⟩ => ⟨S16x256x256x1, .f32⟩
  | .hbm, ⟨19, _⟩ => ⟨S16x256x256x1, .f32⟩
  | .hbm, ⟨20, _⟩ => ⟨S16x256x256x1, .f32⟩
  | .hbm, ⟨21, _⟩ => ⟨S16x256x256x1, .f32⟩
  | .hbm, ⟨22, _⟩ => ⟨S16x256x256x9, .f32⟩
  | .hbm, ⟨23, _⟩ => ⟨S256x256x16x9, .f32⟩
  | .hbm, ⟨24, _⟩ => ⟨S1048576x9, .f32⟩
  | .hbm, ⟨25, _⟩ => ⟨S1x128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S1048576x9, .f32⟩
  | .hbm, ⟨32, _⟩ => ⟨S1048576x9, .f32⟩
  | .hbm, ⟨33, _⟩ => ⟨S1048576x128, .f32⟩
  | .hbm, ⟨34, _⟩ => ⟨S1x128, .f32⟩
  | .hbm, ⟨35, _⟩ => ⟨S1048576x128, .f32⟩
  | .hbm, ⟨36, _⟩ => ⟨S1048576x128, .f32⟩
  | .hbm, ⟨37, _⟩ => ⟨S_, .f32⟩
  | .hbm, ⟨38, _⟩ => ⟨S1048576x128, .f32⟩
  | .hbm, ⟨39, _⟩ => ⟨S1048576x128, .f32⟩
  | .hbm, ⟨40, _⟩ => ⟨S_, .f32⟩
  | .hbm, ⟨41, _⟩ => ⟨S1048576x128, .f32⟩
  | .hbm, ⟨42, _⟩ => ⟨S1048576x128, .i1⟩
  | .hbm, ⟨43, _⟩ => ⟨S_, .f32⟩
  | .hbm, ⟨44, _⟩ => ⟨S_, .f32⟩
  | .hbm, ⟨45, _⟩ => ⟨S1048576x128, .f32⟩
  | .hbm, ⟨46, _⟩ => ⟨S1048576x128, .f32⟩
  | .hbm, ⟨47, _⟩ => ⟨S16x256x256x128, .f32⟩
  | _, _ => ⟨S16x258x258, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]

class Facts₀ : Prop where
  shapeCasts_S128x1x3x3_S9x128 : S128x1x3x3.ShapeCasts S9x128
  slices_S16x258x258_S16x256x256_0_0_0 : S16x258x258.Slices ![0, 0, 0] S16x256x256
  slices_S16x258x258_S16x256x256_0_0_1 : S16x258x258.Slices ![0, 0, 1] S16x256x256
  slices_S16x258x258_S16x256x256_0_0_2 : S16x258x258.Slices ![0, 0, 2] S16x256x256
  slices_S16x258x258_S16x256x256_0_1_0 : S16x258x258.Slices ![0, 1, 0] S16x256x256
  slices_S16x258x258_S16x256x256_0_1_1 : S16x258x258.Slices ![0, 1, 1] S16x256x256
  slices_S16x258x258_S16x256x256_0_1_2 : S16x258x258.Slices ![0, 1, 2] S16x256x256
  slices_S16x258x258_S16x256x256_0_2_0 : S16x258x258.Slices ![0, 2, 0] S16x256x256
  slices_S16x258x258_S16x256x256_0_2_1 : S16x258x258.Slices ![0, 2, 1] S16x256x256
  slices_S16x258x258_S16x256x256_0_2_2 : S16x258x258.Slices ![0, 2, 2] S16x256x256
  bcast_S16x256x256_S16x256x256x1_0_1_2 : S16x256x256.BroadcastsInDim S16x256x256x1 (![0, 1, 2] : Fin 3 → Fin S16x256x256x1.rank)
  concatenates_S16x256x256x1_S16x256x256x1_S16x256x256x1_S16x256x256x1_S16x256x256x1_S16x256x256x1_S16x256x256x1_S16x256x256x1_S16x256x256x1_S16x256x256x9_d3 : Shape.Concatenates [S16x256x256x1, S16x256x256x1, S16x256x256x1, S16x256x256x1, S16x256x256x1, S16x256x256x1, S16x256x256x1, S16x256x256x1, S16x256x256x1] S16x256x256x9 3
  transposes_S16x256x256x9_S256x256x16x9_1_2_0_3 : S16x256x256x9.Transposes [1, 2, 0, 3] S256x256x16x9
  shapeCasts_S256x256x16x9_S1048576x9 : S256x256x16x9.ShapeCasts S1048576x9
  slices_S9x128_S1x128_0_0 : S9x128.Slices ![0, 0] S1x128
  shapeCasts_S1x128_S128 : S1x128.ShapeCasts S128
  bcast_S_S128 : S_.BroadcastsInDim S128 (![] : Fin 0 → Fin S128.rank)
  bcast_S_S1048576x9 : S_.BroadcastsInDim S1048576x9 (![] : Fin 0 → Fin S1048576x9.rank)
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  shapeCasts_S1048576x128_S16x256x256x128 : S1048576x128.ShapeCasts S16x256x256x128
  dot_S1048576x9_S9x128_S1048576x128_1_0_0_1_n_n_wf : DotDims.WF S1048576x9 S9x128 S1048576x128 [1] [0] [0] [1] [] []

variable [Facts₀]

def dot_S1048576x9_S9x128_S1048576x128_1_0_0_1_n_n : DotDims S1048576x9 S9x128 S1048576x128 where
  lhsContracting := [1]
  rhsContracting := [0]
  lhsNonContracting := [0]
  rhsNonContracting := [1]
  lhsBatch := []
  rhsBatch := []
  wf := dot_S1048576x9_S9x128_S1048576x128_1_0_0_1_n_n_wf

class Facts : Prop extends Facts₀ where

variable [Facts]
-- ==== Proof.BitsTile.lean ====
/-
  One tile of the convolution, as the kernel body leaves it.

  At a grid point the body is handed a block of the patch array (8 image rows × 256 columns × 8 batch entries,
  nine taps each), the whole 9 × 128 weight matrix and the 1 × 128 bias row, each in a staging buffer of its
  own, and a staging buffer for the output tile. It reads the three inputs whole, reads the output buffer once
  without using what it read, and stores ONE value over the whole output buffer: the patch block flattened to
  16384 rows, multiplied by the weights, reshaped back, the bias added along the last axis, and every entry
  not below one replaced by one. So after the body the output buffer holds that value at every index —
  whatever it held before — and the three input buffers are as they were. Stated at any float instance.
-/
import proofs.«173945_j26104811225508_2_alg».proof.Proof.Gen.Kernel.Skeleton
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Conv

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of each staging buffer, as the body's loads and its store address it. -/
abbrev wholePatch : Rect S8x256x8x9 := Rect.unit (s := S8x256x8x9) ![0, 0, 0, 0] S8x256x8x9.size Facts₀.inb_S8x256x8x9_S8x256x8x9_0_0_0_0
abbrev wholeWeights : Rect S9x128 := Rect.unit (s := S9x128) ![0, 0] S9x128.size Facts₀.inb_S9x128_S9x128_0_0
abbrev wholeBias : Rect S1x128 := Rect.unit (s := S1x128) ![0, 0] S1x128.size Facts₀.inb_S1x128_S1x128_0_0
abbrev wholeTile : Rect S8x256x8x128 := Rect.unit (s := S8x256x8x128) ![0, 0, 0, 0] S8x256x8x128.size Facts₀.inb_S8x256x8x128_S8x256x8x128_0_0_0_0

/-- What the output buffer holds after the body, from the contents of the three input buffers: the one store,
    over the whole buffer, of the clamped affine image of the patch block. -/
def tileAfter (x : Vec F S8x256x8x9 .f32) (w : Vec F S9x128 .f32) (b : Vec F S1x128 .f32) : Vec F S8x256x8x128 .f32 :=
  View.canon [⟨wholeTile, k0_pay1 (View.ld x wholePatch) (View.ld w wholeWeights) (View.ld b wholeBias)⟩]

/-- The one store covers the output buffer. -/
theorem tile_covered (p : Vec F S8x256x8x128 .f32) (y : S8x256x8x128.Idx) :
    ∃ pc ∈ ([⟨wholeTile, p⟩] : List (View.Piece (Elt F) S8x256x8x128 .f32)), y ∈ pc.1.set :=
  View.cover_of_tiled [⟨wholeTile, p⟩] S8x256x8x128.size (by rfl) y

set_option maxHeartbeats 1000000 in
/-- The body's triple: from the three input buffers at `x`, `w`, `b` and the output buffer at anything, to the
    inputs unchanged and the output at `tileAfter x w b`. -/
theorem tile_triple (c : Dev nD) (E : Set ℕ) (i : grid0.Coords)
    (arg2 : Memref sig .tc .vmem S8x256x8x9 .f32) (harg2 : arg2.IsWhole) (arg3 : Memref sig .tc .vmem S9x128 .f32) (harg3 : arg3.IsWhole)
    (arg4 : Memref sig .tc .vmem S1x128 .f32) (harg4 : arg4.IsWhole) (arg5 : Memref sig .tc .vmem S8x256x8x128 .f32) (harg5 : arg5.IsWhole)
    (x : Vec F S8x256x8x9 .f32) (w : Vec F S9x128 .f32) (b : Vec F S1x128 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (tileAfter x w b)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_covered _)

end Cert.Kernel.Conv

end
-- ==== Proof.BitsHost.lean ====
/-
  The program around its one region.

  Before the region the program computes, on the host, the three arrays the kernel is given: the 9 × 128 weight
  matrix (the filters reinterpreted row by row), the 1 × 128 bias row, and the patch array — nine shifted 256 × 256
  windows of every image joined along a new last axis and transposed so that the image row comes first, the image
  column second, the batch entry third. After the region one line reinterprets the kernel's 256 × 256 × 16 × 128
  result as 16 × 256 × 256 × 128. Here: the contents of every buffer when the region is entered, as the fold of the
  lines before it over the launch memory; the program as those lines, the region, and the line after it; that the
  line after it touches only what it may, allocates nothing and writes none of the kernel's four arrays; and that no
  line writes an argument, so each argument is found, and left, as launched. Stated at any float instance.
-/
import proofs.«173945_j26104811225508_2_alg».proof.Proof.Gen.Kernel.Launch
import proofs.«173945_j26104811225508_2_alg».proof.Proof.Gen.Kernel.Points
import Idealize.ShloMosaic.Lib.Pipeline.FrameBody
import Idealize.ShloMosaic.Lib.Pipeline.FrameSuffix

set_option maxRecDepth 16384

noncomputable section

namespace Cert.Kernel.Conv

open Cert.Kernel Cert.Kernel.Gen
open Cert.Kernel.Facts₀ Cert.Kernel.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The region's entry -/

/-- Every buffer of core `c` when the region is entered: the lines before the region, folded over the launch memory. -/
abbrev entryVal (c : Dev nD) : Valuation τ sig (Elt F) := StableHlo.after (List.flatten [hostOps0]) (fun b => m (c, b))
/-- The same, read at a TensorCore reference. -/
abbrev entryAt (c : Dev nD) (b : Ref sig .tc) : Buf (Elt F) ((c : Thread nD τ).loc b) := entryVal m c (Proc.devRef .tc b)

/-- No line, before the region or after it, allocates a buffer. -/
theorem before_alloc_nothing : (hostOps0 : List (HloOp τ sig (Elt F))).Forall fun op => op.fresh = ∅ := by
  simp only [List.Forall]; repeat' constructor
theorem after_alloc_nothing : (hostOps1 : List (HloOp τ sig (Elt F))).Forall fun op => op.fresh = ∅ := by
  simp only [List.Forall]; repeat' constructor

/-- The program is the lines before the region, the region, and the line after it: from the launch memory it comes
    to the region holding `entryAt`, and goes on from the region's exit with the last line. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_alloc_nothing) main_chain

/-! ## The line after the region -/

/-- It touches only the kernel's arrays and buffers that bypass the region. -/
theorem last_line_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem last_line_allocs_nothing : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_alloc_nothing) op hop

/-- It writes its own result only, which is none of the kernel's four arrays. -/
theorem last_line_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The arguments -/

/-- No line before the region writes argument 0: the region is entered with it as launched. -/
theorem entry_arg0 (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 0 ends as launched, whatever the proof data. -/
theorem exit_arg0 (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (entryVal m c) _ main_arg0 (by exact (by decide : ∀ w, Pipeline.arrRef spec0 w ≠ main_arg0))]
  exact entry_arg0 m c

/-- No line before the region writes argument 1: the region is entered with it as launched. -/
theorem entry_arg1 (c : Dev nD) : entryAt m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 1 ends as launched, whatever the proof data. -/
theorem exit_arg1 (dats : (p : Fin _) → (c : Dev nD) → Dat τ (Elt F) Unit ℕ (UR sig nD τ) ℕ (cfgs p) c) (c : Dev nD) :
    Pipeline.afterTail₀ cfgs dats 0 (entryVal m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (entryVal m c) _ main_arg1 (by exact (by decide : ∀ w, Pipeline.arrRef spec0 w ≠ main_arg1))]
  exact entry_arg1 m c

/-- No line before the region writes argument 2: the region is entered with it as launched. -/
theorem entry_arg2 (c : Dev nD) : entryAt m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 2 ends as launched, whatever the proof data. -/
theorem exit_arg2 (dats : (p : Fin _) → (c : Dev nD) → Dat τ (Elt F) Unit ℕ (UR sig nD τ) ℕ (cfgs p) c) (c : Dev nD) :
    Pipeline.afterTail₀ cfgs dats 0 (entryVal m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (entryVal m c) _ main_arg2 (by exact (by decide : ∀ w, Pipeline.arrRef spec0 w ≠ main_arg2))]
  exact entry_arg2 m c

/-! ## The kernel's blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

end Cert.Kernel.Conv

end
-- ==== Proof.BitsRun.lean ====
/-
  The run of the program and its frame.

  The proof data of the one pipeline: its four arrays are what the region finds; after the body at a grid point the
  three input buffers hold their blocks and the output buffer holds the tile the body computes from those blocks.
  Every input's buffer holds its block at every point — the patch block fetched anew at each point, the weights and
  the bias fetched once and left in place —, so the body's triple applies at every point and the body obligation
  holds. The launch then gives the run: every weakly fair execution ends, nothing faulting, with each array at what
  the blocks written back make of it and every other buffer as the last line leaves it. No line writes an argument,
  so the arguments end as launched: the frame. Stated at any float instance.
-/
import proofs.«173945_j26104811225508_2_alg».proof.Proof.BitsTile
import proofs.«173945_j26104811225508_2_alg».proof.Proof.BitsHost

set_option maxRecDepth 16384

noncomputable section

namespace Cert.Kernel.Conv

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the output's at the tile of those blocks; the invariant the scoped rest and the generator register, untouched;
    nothing owed; full shares. -/
def tiles (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => tileAfter (blockAt m c 0 t) (blockAt m c 1 t) (blockAt m c 2 t)
  Φ _ := Pipeline.ΦA spec0 c
  q _ := fullShare
  owed _ := 0

/-- The arrays are the region-entry contents (the definition projected; the fold over the lines before the region
    is never opened). -/
theorem arrays_entry (c : Dev nD) (w : Fin cfg0.W) : (tiles m 0 c).A w = entryAt m c (Pipeline.arrRef spec0 w) := by
  dsimp only [tiles]

/-- What the body leaves, window by window. -/
theorem left_0 (c : Dev nD) (t : Fin cfg0.N) : (tiles m 0 c).after 0 t = blockAt m c 0 t := by dsimp only [tiles]
theorem left_1 (c : Dev nD) (t : Fin cfg0.N) : (tiles m 0 c).after 1 t = blockAt m c 1 t := by dsimp only [tiles]
theorem left_2 (c : Dev nD) (t : Fin cfg0.N) : (tiles m 0 c).after 2 t = blockAt m c 2 t := by dsimp only [tiles]
theorem left_3 (c : Dev nD) (t : Fin cfg0.N) :
    (tiles m 0 c).after 3 t = tileAfter (blockAt m c 0 t) (blockAt m c 1 t) (blockAt m c 2 t) := by dsimp only [tiles]

/-- Input window 0's current staging buffer holds its block at every point, fetched there or not. -/
theorem found_0 (c : Dev nD) (t : Fin cfg0.N) (d) : (tiles m 0 c).before 0 t d = blockAt m c 0 t :=
  ((tiles m 0 c).before_in_eq_fetched 0 rfl (fun _ => rfl) (fun _ _ _ => rfl)
      (fun t => by rw [left_0]; unfold Dat.blockOf blockAt; rw [arrays_entry]; try rfl) t d).trans
    (by unfold Dat.fetched Dat.blockOf blockAt; rw [arrays_entry]; try rfl)

/-- Input window 1's current staging buffer holds its block at every point, fetched there or not. -/
theorem found_1 (c : Dev nD) (t : Fin cfg0.N) (d) : (tiles m 0 c).before 1 t d = blockAt m c 1 t :=
  ((tiles m 0 c).before_in_eq_fetched 1 rfl (fun _ => rfl) (fun _ _ _ => rfl)
      (fun t => by rw [left_1]; unfold Dat.blockOf blockAt; rw [arrays_entry]; try rfl) t d).trans
    (by unfold Dat.fetched Dat.blockOf blockAt; rw [arrays_entry]; try rfl)

/-- Input window 2's current staging buffer holds its block at every point, fetched there or not. -/
theorem found_2 (c : Dev nD) (t : Fin cfg0.N) (d) : (tiles m 0 c).before 2 t d = blockAt m c 2 t :=
  ((tiles m 0 c).before_in_eq_fetched 2 rfl (fun _ => rfl) (fun _ _ _ => rfl)
      (fun t => by rw [left_2]; unfold Dat.blockOf blockAt; rw [arrays_entry]; try rfl) t d).trans
    (by unfold Dat.fetched Dat.blockOf blockAt; rw [arrays_entry]; try rfl)

/-! ## The body obligation -/

/-- What the body is called with at point `t`, the windows one by one, -/
def handed (c : Dev nD) (t : Fin cfg0.N) : sProp 𝕄 :=
  iprop((tiles m 0 c).Φ t.castSucc ∗ (tiles m 0 c).owesAt () t.castSucc
    ∗ (∃ d, owns (c : Thread nD τ) (st0_0 t) fullShare ((tiles m 0 c).before 0 t d))
    ∗ (∃ d, owns (c : Thread nD τ) (st0_1 t) fullShare ((tiles m 0 c).before 1 t d))
    ∗ (∃ d, owns (c : Thread nD τ) (st0_2 t) fullShare ((tiles m 0 c).before 2 t d))
    ∗ (∃ d, owns (c : Thread nD τ) (st0_3 t) fullShare ((tiles m 0 c).before 3 t d)))

/-- and what it returns. -/
def returned (c : Dev nD) (t : Fin cfg0.N) : sProp 𝕄 :=
  iprop((tiles m 0 c).Φ t.succ ∗ (tiles m 0 c).owesAt () t.succ
    ∗ owns (c : Thread nD τ) (st0_0 t) fullShare ((tiles m 0 c).after 0 t)
    ∗ owns (c : Thread nD τ) (st0_1 t) fullShare ((tiles m 0 c).after 1 t)
    ∗ owns (c : Thread nD τ) (st0_2 t) fullShare ((tiles m 0 c).after 2 t)
    ∗ owns (c : Thread nD τ) (st0_3 t) fullShare ((tiles m 0 c).after 3 t))

/-- The body at any point: the inputs' buffers hold their blocks, so the body's triple applies; the invariant and what
    the core owes pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [found_0, found_1, found_2]
  rw [show (tiles m 0 c).Φ t.succ = (tiles m 0 c).Φ t.castSucc from rfl,
    show (tiles m 0 c).owesAt () t.succ = (tiles m 0 c).owesAt () t.castSucc from rfl,
    left_0, left_1, left_2, left_3]
  iintro ⟨HΦ, Ho, ⟨%d0, H0⟩, ⟨%d1, H1⟩, ⟨%d2, H2⟩, ⟨%d3, H3⟩⟩
  iapply (tile_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (tiles (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program terminates, nothing faulting, with
    each of the kernel's arrays at what the library computes from the proof data and every other unscoped buffer as the
    line after the region leaves it. -/
theorem run_main : θ_run defs (onTc (τ := τ) (main (F := F))) (s₀ m ρ)
    (Pipeline.FramePost cfgs (tiles m) 0 (Pipeline.afterTail₀ cfgs (tiles m) 0 (entryVal m) [hostOps1])) :=
  Pipeline.θ_run_frame_around cfgs (tiles m) (0 : Fin 1) launch0 defs₀ Variants.none m ρ main
    (hbody := fun c => (body_obligation m c).loose) (hshare := fun c => (tiles m 0 c).share_full fun _ => rfl)
    (howed := fun _ _ => rfl) (V₀ := entryVal m) (opss := [hostOps1]) (hsub := last_line_within) (hfresh := last_line_allocs_nothing)
    (hkeep := last_line_keeps_arrays) (hmain := main_around m Variants.none) (hA := arrays_entry m) (hΦ := fun _ _ => rfl)

/-- The frame: the program runs and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (exit_arg0 m (tiles m) c),
     ((h c).2 main_arg1 (Pipeline.mem_restRefs_of main_arg1 (by decide) (by decide))).trans (exit_arg1 m (tiles m) c),
     ((h c).2 main_arg2 (Pipeline.mem_restRefs_of main_arg2 (by decide) (by decide))).trans (exit_arg2 m (tiles m) c)⟩) (run_main m ρ)

end Cert.Kernel.Conv

end
-- ==== Proof.IdealTile.lean ====
/-
  One tile of the convolution, as the kernel body leaves it.

  At a grid point the body is handed a block of the patch array (8 image rows × 256 columns × 8 batch entries,
  nine taps each), the whole 9 × 128 weight matrix and the 1 × 128 bias row, each in a staging buffer of its
  own, and a staging buffer for the output tile. It reads the three inputs whole, reads the output buffer once
  without using what it read, and stores ONE value over the whole output buffer: the patch block flattened to
  16384 rows, multiplied by the weights, reshaped back, the bias added along the last axis, and every entry
  not below one replaced by one. So after the body the output buffer holds that value at every index —
  whatever it held before — and the three input buffers are as they were. Stated at any float instance.
-/
import proofs.«173945_j26104811225508_2_alg».proof.Proof.Gen.KernelIdeal.Skeleton
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Conv

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of each staging buffer, as the body's loads and its store address it. -/
abbrev wholePatch : Rect S8x256x8x9 := Rect.unit (s := S8x256x8x9) ![0, 0, 0, 0] S8x256x8x9.size Facts₀.inb_S8x256x8x9_S8x256x8x9_0_0_0_0
abbrev wholeWeights : Rect S9x128 := Rect.unit (s := S9x128) ![0, 0] S9x128.size Facts₀.inb_S9x128_S9x128_0_0
abbrev wholeBias : Rect S1x128 := Rect.unit (s := S1x128) ![0, 0] S1x128.size Facts₀.inb_S1x128_S1x128_0_0
abbrev wholeTile : Rect S8x256x8x128 := Rect.unit (s := S8x256x8x128) ![0, 0, 0, 0] S8x256x8x128.size Facts₀.inb_S8x256x8x128_S8x256x8x128_0_0_0_0

/-- What the output buffer holds after the body, from the contents of the three input buffers: the one store,
    over the whole buffer, of the clamped affine image of the patch block. -/
def tileAfter (x : Vec F S8x256x8x9 .f32) (w : Vec F S9x128 .f32) (b : Vec F S1x128 .f32) : Vec F S8x256x8x128 .f32 :=
  View.canon [⟨wholeTile, k0_pay1 (View.ld x wholePatch) (View.ld w wholeWeights) (View.ld b wholeBias)⟩]

/-- The one store covers the output buffer. -/
theorem tile_covered (p : Vec F S8x256x8x128 .f32) (y : S8x256x8x128.Idx) :
    ∃ pc ∈ ([⟨wholeTile, p⟩] : List (View.Piece (Elt F) S8x256x8x128 .f32)), y ∈ pc.1.set :=
  View.cover_of_tiled [⟨wholeTile, p⟩] S8x256x8x128.size (by rfl) y

set_option maxHeartbeats 1000000 in
/-- The body's triple: from the three input buffers at `x`, `w`, `b` and the output buffer at anything, to the
    inputs unchanged and the output at `tileAfter x w b`. -/
theorem tile_triple (c : Dev nD) (E : Set ℕ) (i : grid0.Coords)
    (arg2 : Memref sig .tc .vmem S8x256x8x9 .f32) (harg2 : arg2.IsWhole) (arg3 : Memref sig .tc .vmem S9x128 .f32) (harg3 : arg3.IsWhole)
    (arg4 : Memref sig .tc .vmem S1x128 .f32) (harg4 : arg4.IsWhole) (arg5 : Memref sig .tc .vmem S8x256x8x128 .f32) (harg5 : arg5.IsWhole)
    (x : Vec F S8x256x8x9 .f32) (w : Vec F S9x128 .f32) (b : Vec F S1x128 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (tileAfter x w b)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_covered _)

end Cert.KernelIdeal.Conv

end
-- ==== Proof.IdealHost.lean ====
/-
  The program around its one region.

  Before the region the program computes, on the host, the three arrays the kernel is given: the 9 × 128 weight
  matrix (the filters reinterpreted row by row), the 1 × 128 bias row, and the patch array — nine shifted 256 × 256
  windows of every image joined along a new last axis and transposed so that the image row comes first, the image
  column second, the batch entry third. After the region one line reinterprets the kernel's 256 × 256 × 16 × 128
  result as 16 × 256 × 256 × 128. Here: the contents of every buffer when the region is entered, as the fold of the
  lines before it over the launch memory; the program as those lines, the region, and the line after it; that the
  line after it touches only what it may, allocates nothing and writes none of the kernel's four arrays; and that no
  line writes an argument, so each argument is found, and left, as launched. Stated at any float instance.
-/
import proofs.«173945_j26104811225508_2_alg».proof.Proof.Gen.KernelIdeal.Launch
import proofs.«173945_j26104811225508_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Conv

open Cert.KernelIdeal Cert.KernelIdeal.Gen
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The region's entry -/

/-- Every buffer of core `c` when the region is entered: the lines before the region, folded over the launch memory. -/
abbrev entryVal (c : Dev nD) : Valuation τ sig (Elt F) := StableHlo.after (List.flatten [hostOps0]) (fun b => m (c, b))
/-- The same, read at a TensorCore reference. -/
abbrev entryAt (c : Dev nD) (b : Ref sig .tc) : Buf (Elt F) ((c : Thread nD τ).loc b) := entryVal m c (Proc.devRef .tc b)

/-- No line, before the region or after it, allocates a buffer. -/
theorem before_alloc_nothing : (hostOps0 : List (HloOp τ sig (Elt F))).Forall fun op => op.fresh = ∅ := by
  simp only [List.Forall]; repeat' constructor
theorem after_alloc_nothing : (hostOps1 : List (HloOp τ sig (Elt F))).Forall fun op => op.fresh = ∅ := by
  simp only [List.Forall]; repeat' constructor

/-- The program is the lines before the region, the region, and the line after it: from the launch memory it comes
    to the region holding `entryAt`, and goes on from the region's exit with the last line. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_alloc_nothing) main_chain

/-! ## The line after the region -/

/-- It touches only the kernel's arrays and buffers that bypass the region. -/
theorem last_line_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem last_line_allocs_nothing : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_alloc_nothing) op hop

/-- It writes its own result only, which is none of the kernel's four arrays. -/
theorem last_line_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The arguments -/

/-- No line before the region writes argument 0: the region is entered with it as launched. -/
theorem entry_arg0 (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 0 ends as launched, whatever the proof data. -/
theorem exit_arg0 (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (entryVal m c) _ main_arg0 (by exact (by decide : ∀ w, Pipeline.arrRef spec0 w ≠ main_arg0))]
  exact entry_arg0 m c

/-- No line before the region writes argument 1: the region is entered with it as launched. -/
theorem entry_arg1 (c : Dev nD) : entryAt m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 1 ends as launched, whatever the proof data. -/
theorem exit_arg1 (dats : (p : Fin _) → (c : Dev nD) → Dat τ (Elt F) Unit ℕ (UR sig nD τ) ℕ (cfgs p) c) (c : Dev nD) :
    Pipeline.afterTail₀ cfgs dats 0 (entryVal m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (entryVal m c) _ main_arg1 (by exact (by decide : ∀ w, Pipeline.arrRef spec0 w ≠ main_arg1))]
  exact entry_arg1 m c

/-- No line before the region writes argument 2: the region is entered with it as launched. -/
theorem entry_arg2 (c : Dev nD) : entryAt m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 2 ends as launched, whatever the proof data. -/
theorem exit_arg2 (dats : (p : Fin _) → (c : Dev nD) → Dat τ (Elt F) Unit ℕ (UR sig nD τ) ℕ (cfgs p) c) (c : Dev nD) :
    Pipeline.afterTail₀ cfgs dats 0 (entryVal m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (entryVal m c) _ main_arg2 (by exact (by decide : ∀ w, Pipeline.arrRef spec0 w ≠ main_arg2))]
  exact entry_arg2 m c

/-! ## The kernel's blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

end Cert.KernelIdeal.Conv

end
-- ==== Proof.IdealRun.lean ====
/-
  The run of the program and its frame.

  The proof data of the one pipeline: its four arrays are what the region finds; after the body at a grid point the
  three input buffers hold their blocks and the output buffer holds the tile the body computes from those blocks.
  Every input's buffer holds its block at every point — the patch block fetched anew at each point, the weights and
  the bias fetched once and left in place —, so the body's triple applies at every point and the body obligation
  holds. The launch then gives the run: every weakly fair execution ends, nothing faulting, with each array at what
  the blocks written back make of it and every other buffer as the last line leaves it. No line writes an argument,
  so the arguments end as launched: the frame. Stated at any float instance.
-/
import proofs.«173945_j26104811225508_2_alg».proof.Proof.IdealTile
import proofs.«173945_j26104811225508_2_alg».proof.Proof.IdealHost

set_option maxRecDepth 16384

noncomputable section

namespace Cert.KernelIdeal.Conv

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the output's at the tile of those blocks; the invariant the scoped rest and the generator register, untouched;
    nothing owed; full shares. -/
def tiles (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => tileAfter (blockAt m c 0 t) (blockAt m c 1 t) (blockAt m c 2 t)
  Φ _ := Pipeline.ΦA spec0 c
  q _ := fullShare
  owed _ := 0

/-- The arrays are the region-entry contents (the definition projected; the fold over the lines before the region
    is never opened). -/
theorem arrays_entry (c : Dev nD) (w : Fin cfg0.W) : (tiles m 0 c).A w = entryAt m c (Pipeline.arrRef spec0 w) := by
  dsimp only [tiles]

/-- What the body leaves, window by window. -/
theorem left_0 (c : Dev nD) (t : Fin cfg0.N) : (tiles m 0 c).after 0 t = blockAt m c 0 t := by dsimp only [tiles]
theorem left_1 (c : Dev nD) (t : Fin cfg0.N) : (tiles m 0 c).after 1 t = blockAt m c 1 t := by dsimp only [tiles]
theorem left_2 (c : Dev nD) (t : Fin cfg0.N) : (tiles m 0 c).after 2 t = blockAt m c 2 t := by dsimp only [tiles]
theorem left_3 (c : Dev nD) (t : Fin cfg0.N) :
    (tiles m 0 c).after 3 t = tileAfter (blockAt m c 0 t) (blockAt m c 1 t) (blockAt m c 2 t) := by dsimp only [tiles]

/-- Input window 0's current staging buffer holds its block at every point, fetched there or not. -/
theorem found_0 (c : Dev nD) (t : Fin cfg0.N) (d) : (tiles m 0 c).before 0 t d = blockAt m c 0 t :=
  ((tiles m 0 c).before_in_eq_fetched 0 rfl (fun _ => rfl) (fun _ _ _ => rfl)
      (fun t => by rw [left_0]; unfold Dat.blockOf blockAt; rw [arrays_entry]; try rfl) t d).trans
    (by unfold Dat.fetched Dat.blockOf blockAt; rw [arrays_entry]; try rfl)

/-- Input window 1's current staging buffer holds its block at every point, fetched there or not. -/
theorem found_1 (c : Dev nD) (t : Fin cfg0.N) (d) : (tiles m 0 c).before 1 t d = blockAt m c 1 t :=
  ((tiles m 0 c).before_in_eq_fetched 1 rfl (fun _ => rfl) (fun _ _ _ => rfl)
      (fun t => by rw [left_1]; unfold Dat.blockOf blockAt; rw [arrays_entry]; try rfl) t d).trans
    (by unfold Dat.fetched Dat.blockOf blockAt; rw [arrays_entry]; try rfl)

/-- Input window 2's current staging buffer holds its block at every point, fetched there or not. -/
theorem found_2 (c : Dev nD) (t : Fin cfg0.N) (d) : (tiles m 0 c).before 2 t d = blockAt m c 2 t :=
  ((tiles m 0 c).before_in_eq_fetched 2 rfl (fun _ => rfl) (fun _ _ _ => rfl)
      (fun t => by rw [left_2]; unfold Dat.blockOf blockAt; rw [arrays_entry]; try rfl) t d).trans
    (by unfold Dat.fetched Dat.blockOf blockAt; rw [arrays_entry]; try rfl)

/-! ## The body obligation -/

/-- What the body is called with at point `t`, the windows one by one, -/
def handed (c : Dev nD) (t : Fin cfg0.N) : sProp 𝕄 :=
  iprop((tiles m 0 c).Φ t.castSucc ∗ (tiles m 0 c).owesAt () t.castSucc
    ∗ (∃ d, owns (c : Thread nD τ) (st0_0 t) fullShare ((tiles m 0 c).before 0 t d))
    ∗ (∃ d, owns (c : Thread nD τ) (st0_1 t) fullShare ((tiles m 0 c).before 1 t d))
    ∗ (∃ d, owns (c : Thread nD τ) (st0_2 t) fullShare ((tiles m 0 c).before 2 t d))
    ∗ (∃ d, owns (c : Thread nD τ) (st0_3 t) fullShare ((tiles m 0 c).before 3 t d)))

/-- and what it returns. -/
def returned (c : Dev nD) (t : Fin cfg0.N) : sProp 𝕄 :=
  iprop((tiles m 0 c).Φ t.succ ∗ (tiles m 0 c).owesAt () t.succ
    ∗ owns (c : Thread nD τ) (st0_0 t) fullShare ((tiles m 0 c).after 0 t)
    ∗ owns (c : Thread nD τ) (st0_1 t) fullShare ((tiles m 0 c).after 1 t)
    ∗ owns (c : Thread nD τ) (st0_2 t) fullShare ((tiles m 0 c).after 2 t)
    ∗ owns (c : Thread nD τ) (st0_3 t) fullShare ((tiles m 0 c).after 3 t))

/-- The body at any point: the inputs' buffers hold their blocks, so the body's triple applies; the invariant and what
    the core owes pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [found_0, found_1, found_2]
  rw [show (tiles m 0 c).Φ t.succ = (tiles m 0 c).Φ t.castSucc from rfl,
    show (tiles m 0 c).owesAt () t.succ = (tiles m 0 c).owesAt () t.castSucc from rfl,
    left_0, left_1, left_2, left_3]
  iintro ⟨HΦ, Ho, ⟨%d0, H0⟩, ⟨%d1, H1⟩, ⟨%d2, H2⟩, ⟨%d3, H3⟩⟩
  iapply (tile_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (tiles (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program terminates, nothing faulting, with
    each of the kernel's arrays at what the library computes from the proof data and every other unscoped buffer as the
    line after the region leaves it. -/
theorem run_main : θ_run defs (onTc (τ := τ) (main (F := F))) (s₀ m ρ)
    (Pipeline.FramePost cfgs (tiles m) 0 (Pipeline.afterTail₀ cfgs (tiles m) 0 (entryVal m) [hostOps1])) :=
  Pipeline.θ_run_frame_around cfgs (tiles m) (0 : Fin 1) launch0 defs₀ Variants.none m ρ main
    (hbody := fun c => (body_obligation m c).loose) (hshare := fun c => (tiles m 0 c).share_full fun _ => rfl)
    (howed := fun _ _ => rfl) (V₀ := entryVal m) (opss := [hostOps1]) (hsub := last_line_within) (hfresh := last_line_allocs_nothing)
    (hkeep := last_line_keeps_arrays) (hmain := main_around m Variants.none) (hA := arrays_entry m) (hΦ := fun _ _ => rfl)

/-- The frame: the program runs and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (exit_arg0 m (tiles m) c),
     ((h c).2 main_arg1 (Pipeline.mem_restRefs_of main_arg1 (by decide) (by decide))).trans (exit_arg1 m (tiles m) c),
     ((h c).2 main_arg2 (Pipeline.mem_restRefs_of main_arg2 (by decide) (by decide))).trans (exit_arg2 m (tiles m) c)⟩) (run_main m ρ)

end Cert.KernelIdeal.Conv

end
-- ==== Proof.SpikeEntry.lean ====
/-
  The spiking convolution, entry by entry, on the extended reals.

  A patch is the nine taps of a 3 × 3 window of one image; the patch array holds, for image row `i`, image column `j`
  and batch entry `b`, that window's taps in row-major order. An output entry pairs a patch with a filter `f`: the sum
  over the nine taps of tap times weight, plus the filter's threshold, and a spike time that is not below the latest
  admissible one is replaced by it. The whole result lists the entries with `(i, j, b, f)` in row-major order and is
  then read as a 16 × 256 × 256 × 128 array, position by position: entry number `n` of that array is the entry whose
  `(i, j, b, f)` has row-major position `n` among 256 × 256 × 16 × 128.

  Both programs fold the earliest spike time, which is zero, into their arithmetic: one subtracts it from every tap and
  adds it to every sum; the other adds it to the threshold and subtracts zero times the filter's weight sum. On the
  extended reals `x − 0 = x`, `x + 0 = x` and `0 · s = 0` hold for EVERY `x` and `s`, infinite ones included, so neither
  folding changes an entry and no finiteness is used.
-/
import Idealize.ShloMosaic.Lib.ValueIdx
import Idealize.ShloMosaic.PureOps.Ideal.Laws

noncomputable section

namespace Cert.SpikeConv

open Idealize.ShloMosaic Idealize.ShloMosaic.ValueIdx

/-- The latest admissible spike time, as both programs spell it. -/
def tMax : EReal := FloatOps.ofBits (F := Ideal) .f32 0x3F800000#32

/-- A spike time not below the latest one is replaced by it. -/
def capped (v : EReal) : EReal := Scalar.select (FloatOps.cmpf (F := Ideal) (φ := .f32) .olt v tMax) v tMax

/-- One output entry: patch `(i, j, b)` against filter `f`. -/
def spike (X : (⟨4, ![256, 256, 16, 9]⟩ : Shape).Idx → EReal) (W : (⟨2, ![9, 128]⟩ : Shape).Idx → EReal)
    (th : (⟨1, ![128]⟩ : Shape).Idx → EReal) (i : Fin 256) (j : Fin 256) (b : Fin 16) (f : Fin 128) : EReal :=
  capped ((∑ q : Fin 9, X (ix4 i j b q) * W (ix2 q f)) + th (ix1 f))

/-- The row-major position of an index of the 16 × 256 × 256 × 128 result. -/
def pos (o : (⟨4, ![16, 256, 256, 128]⟩ : Shape).Idx) : Nat :=
  (((o 0).val * 256 + (o 1).val) * 256 + (o 2).val) * 128 + (o 3).val

theorem pos_lt (o : (⟨4, ![16, 256, 256, 128]⟩ : Shape).Idx) : pos o < 134217728 := by
  have h0 : (o 0).val < 16 := (o 0).isLt
  have h1 : (o 1).val < 256 := (o 1).isLt
  have h2 : (o 2).val < 256 := (o 2).isLt
  have h3 : (o 3).val < 128 := (o 3).isLt
  unfold pos; omega

/-- The image row, image column, batch entry and filter of the entry at a position. -/
def rowOf (o : (⟨4, ![16, 256, 256, 128]⟩ : Shape).Idx) : Fin 256 := ⟨pos o / 524288, by have := pos_lt o; omega⟩
def colOf (o : (⟨4, ![16, 256, 256, 128]⟩ : Shape).Idx) : Fin 256 := ⟨pos o / 2048 % 256, Nat.mod_lt _ (by decide)⟩
def batchOf (o : (⟨4, ![16, 256, 256, 128]⟩ : Shape).Idx) : Fin 16 := ⟨pos o / 128 % 16, Nat.mod_lt _ (by decide)⟩
def filterOf (o : (⟨4, ![16, 256, 256, 128]⟩ : Shape).Idx) : Fin 128 := ⟨pos o % 128, Nat.mod_lt _ (by decide)⟩

/-- The whole result. -/
def spikes (X : (⟨4, ![256, 256, 16, 9]⟩ : Shape).Idx → EReal) (W : (⟨2, ![9, 128]⟩ : Shape).Idx → EReal)
    (th : (⟨1, ![128]⟩ : Shape).Idx → EReal) : (⟨4, ![16, 256, 256, 128]⟩ : Shape).Idx → EReal :=
  fun o => spike X W th (rowOf o) (colOf o) (batchOf o) (filterOf o)

/-- Zero added to the threshold and zero times a weight sum taken from it leave the threshold, whatever the sum. -/
theorem threshold_fold (a s : EReal) : a + 0 - 0 * s = a := by
  rw [zero_mul, sub_zero, add_zero]

/-- Zero taken from a tap leaves the tap. -/
theorem tap_fold (x : EReal) : x - 0 = x := sub_zero x

/-- Zero added to a sum leaves the sum. -/
theorem sum_fold (x : EReal) : x + 0 = x := add_zero x

/-- The zero word denotes zero. -/
theorem zero_word : FloatOps.ofBits (F := Ideal) .f32 0x00000000#32 = (0 : EReal) := Ideal.ofBits_zero_f32

end Cert.SpikeConv

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.IdealTileValue.lean ====
/-
  One tile of the convolution, entry by entry, on the extended reals.

  The body's stored value is the clamped sum of two tiles: the product tile, which is the patch block flattened to
  16384 rows of nine taps, multiplied by the 9 × 128 weights and reshaped back to 8 × 256 × 8 × 128; and the bias tile,
  which is the bias row repeated along the three leading axes. Row `(y0·256 + y1)·8 + y2` of the flattened block is
  the patch at `(y0, y1, y2)` — both are the same row-major position —, a change of float format is the identity and
  the product into a zero accumulator is the plain sum over the nine taps; so the entry at `(y0, y1, y2, f)` is the sum
  over the taps `q` of patch tap `q` times weight `(q, f)`, plus bias `f`, capped at the latest spike time.
-/
import proofs.«173945_j26104811225508_2_alg».proof.Proof.Gen.KernelIdeal.Skeleton
import proofs.«173945_j26104811225508_2_alg».proof.Proof.SpikeEntry
import proofs.«173945_j26104811225508_2_alg».proof.Proof.LibPlainDot
import Idealize.ShloMosaic.Lib.Pipeline.Value
import Idealize.ShloMosaic.Lib.ValueIdx
import Idealize.ShloMosaic.PureOps.Ideal.Laws

noncomputable section

namespace Cert.KernelIdeal.ConvValue

open Cert.KernelIdeal Cert.KernelIdeal.Gen
open Idealize.ShloMosaic Idealize.ShloMosaic.ValueIdx Cert.SpikeConv

/-- The row of the flattened block that holds the patch at `(y0, y1, y2)`. -/
def flatRow (y0 : Fin 8) (y1 : Fin 256) (y2 : Fin 8) : Fin 16384 :=
  ⟨(y0.val * 256 + y1.val) * 8 + y2.val, by have := y0.isLt; have := y1.isLt; have := y2.isLt; omega⟩

/-- The product tile: the flattened patch block times the weights, reshaped to the tile. -/
def prodTile (x : Vec Ideal S8x256x8x9 .f32) (w : Vec Ideal S9x128 .f32) : FVec Ideal S8x256x8x128 .f32 :=
  shapeCast S8x256x8x128
    (matmul dot_S16384x9_S9x128_S16384x128_1_0_0_1_n_n none
      (truncf .bf16 (shapeCast S16384x9 (shapeCast S8x256x8x9 x Facts₀.shapeCasts_S8x256x8x9_S8x256x8x9) Facts₀.shapeCasts_S8x256x8x9_S16384x9) Facts₀.bitsLt_bf16_f32)
      (truncf .bf16 (shapeCast S9x128 w Facts₀.shapeCasts_S9x128_S9x128) Facts₀.bitsLt_bf16_f32)
      (constant S16384x128 .f32 0x00000000#32))
    Facts₀.shapeCasts_S16384x128_S8x256x8x128

/-- The bias tile: the bias row repeated along the three leading axes. -/
def biasTile (b : Vec Ideal S1x128 .f32) : FVec Ideal S8x256x8x128 .f32 :=
  broadcastTo S8x256x8x128 (shapeCast S1x1x1x128 (shapeCast S128 b Facts₀.shapeCasts_S1x128_S128) Facts₀.shapeCasts_S128_S1x1x1x128)
    Facts₀.broadcasts_S1x1x1x128_S8x256x8x128

/-- The body's stored value is the two tiles added, compared with the latest spike time and capped by it. -/
theorem stored_eq (x : Vec Ideal S8x256x8x9 .f32) (w : Vec Ideal S9x128 .f32) (b : Vec Ideal S1x128 .f32) :
    k0_pay1 (F := Ideal) x w b
      = select (cmpf .olt (addf (prodTile x w) (biasTile b)) (broadcast S8x256x8x128 (Scalar.ofBits .f32 0x3F800000#32)))
          (addf (prodTile x w) (biasTile b)) (broadcast S8x256x8x128 (Scalar.ofBits .f32 0x3F800000#32)) := rfl

/-- The flattened patch block at row `flatRow y0 y1 y2`, tap `q`, is the block's patch `(y0, y1, y2)` at tap `q`. -/
theorem flat_patch (x : S8x256x8x9.Idx → EReal) (y0 : Fin 8) (y1 : Fin 256) (y2 : Fin 8) (q : Fin 9) :
    shapeCast S16384x9 (shapeCast S8x256x8x9 x Facts₀.shapeCasts_S8x256x8x9_S8x256x8x9) Facts₀.shapeCasts_S8x256x8x9_S16384x9
      (ix2 (flatRow y0 y1 y2) q) = x (ix4 y0 y1 y2 q) := by
  rw [shapeCast_self]
  exact shapeCast_apply x Facts₀.shapeCasts_S8x256x8x9_S16384x9 (ix2 (flatRow y0 y1 y2) q) (ix4 y0 y1 y2 q)
    (by rw [Shape.rowMajor_val_four, Shape.rowMajor_val_two]; rfl)

/-- The product tile at `(y0, y1, y2, f)`: the nine taps of the patch against column `f` of the weights. -/
theorem prodTile_apply (x : Vec Ideal S8x256x8x9 .f32) (w : Vec Ideal S9x128 .f32) (y0 : Fin 8) (y1 : Fin 256) (y2 : Fin 8) (f : Fin 128) :
    prodTile x w (ix4 y0 y1 y2 f) = ∑ q : Fin 9, x (ix4 y0 y1 y2 q) * w (ix2 q f) := by
  unfold prodTile
  refine (shapeCast_apply _ Facts₀.shapeCasts_S16384x128_S8x256x8x128 (ix4 y0 y1 y2 f) (ix2 (flatRow y0 y1 y2) f)
    (by rw [Shape.rowMajor_val_four, Shape.rowMajor_val_two]; rfl)).trans ?_
  refine (Cert.PlainDot.matmul_zero_ix2 dot_S16384x9_S9x128_S16384x128_1_0_0_1_n_n rfl none _ _ (flatRow y0 y1 y2) f).trans ?_
  refine Finset.sum_congr rfl fun q _ => ?_
  show shapeCast S16384x9 (shapeCast S8x256x8x9 x Facts₀.shapeCasts_S8x256x8x9_S8x256x8x9) Facts₀.shapeCasts_S8x256x8x9_S16384x9
      (ix2 (flatRow y0 y1 y2) q) * shapeCast S9x128 w Facts₀.shapeCasts_S9x128_S9x128 (ix2 q f) = _
  rw [flat_patch, shapeCast_self]

/-- The bias tile at `(y0, y1, y2, f)` is the bias row's entry `f`. -/
theorem biasTile_apply (b : Vec Ideal S1x128 .f32) (y0 : Fin 8) (y1 : Fin 256) (y2 : Fin 8) (f : Fin 128) :
    biasTile b (ix4 y0 y1 y2 f) = b (ix2 0 f) := by
  unfold biasTile
  refine (broadcastTo_apply _ Facts₀.broadcasts_S1x1x1x128_S8x256x8x128 (ix4 y0 y1 y2 f) (ix4 (0 : Fin 1) (0 : Fin 1) (0 : Fin 1) f)
    (fun a => by
      match a with
      | ⟨0, _⟩ => rfl
      | ⟨1, _⟩ => rfl
      | ⟨2, _⟩ => rfl
      | ⟨3, _⟩ => rfl)).trans ?_
  refine (shapeCast_apply _ Facts₀.shapeCasts_S128_S1x1x1x128 (ix4 (0 : Fin 1) (0 : Fin 1) (0 : Fin 1) f) (ix1 f)
    (by rw [Shape.rowMajor_val_four, Shape.rowMajor_val_one]; show f.val = ((0 * 1 + 0) * 1 + 0) * 128 + f.val; omega)).trans ?_
  exact shapeCast_apply b Facts₀.shapeCasts_S1x128_S128 (ix1 f) (ix2 (0 : Fin 1) f)
    (by rw [Shape.rowMajor_val_two, Shape.rowMajor_val_one]; show 0 * 128 + f.val = f.val; omega)

/-- ONE TILE ENTRY: the body's stored value at `(y0, y1, y2, f)` is the capped affine image of the patch's nine taps. -/
theorem tile_entry (x : Vec Ideal S8x256x8x9 .f32) (w : Vec Ideal S9x128 .f32) (b : Vec Ideal S1x128 .f32)
    (y0 : Fin 8) (y1 : Fin 256) (y2 : Fin 8) (f : Fin 128) :
    k0_pay1 (F := Ideal) x w b (ix4 y0 y1 y2 f)
      = capped ((∑ q : Fin 9, x (ix4 y0 y1 y2 q) * w (ix2 q f)) + b (ix2 0 f)) := by
  rw [stored_eq]
  show Scalar.select (FloatOps.cmpf .olt (prodTile x w (ix4 y0 y1 y2 f) + biasTile b (ix4 y0 y1 y2 f)) tMax)
      (prodTile x w (ix4 y0 y1 y2 f) + biasTile b (ix4 y0 y1 y2 f)) tMax = _
  rw [prodTile_apply, biasTile_apply]
  rfl

end Cert.KernelIdeal.ConvValue

end
-- ==== Proof.IdealBlocks.lean ====
/-
  The kernel's result array as one function, and the kernel's blocks read off the arrays.

  The result array's entry at `(i, j, b, f)` is the nine taps of patch `(i, j, b)` against column `f` of the weights, bias
  `f` added, capped at the latest spike time. An element of a block sits in its array, on each axis, at block position
  times block size plus its coordinate in the block; the block positions of the four windows are decided over the 64
  grid points: the patch block sits where the output tile sits on the row and batch axes, every other position is zero,
  and every pair of a row block and a batch block is some point's.
-/
import proofs.«173945_j26104811225508_2_alg».proof.Proof.IdealRun
import proofs.«173945_j26104811225508_2_alg».proof.Proof.IdealTileValue
import Idealize.ShloMosaic.Lib.Pipeline.Value
import Idealize.ShloMosaic.Lib.StableHlo.Run

set_option maxRecDepth 16384

noncomputable section

namespace Cert.KernelIdeal.ConvValue

open Cert.KernelIdeal Cert.KernelIdeal.Gen Cert.KernelIdeal.Conv
open Idealize.ShloMosaic Idealize.ShloMosaic.TcCoe Idealize.ShloMosaic.ValueIdx Idealize.SL.Sem Idealize.ShloMosaic.StableHlo
open Cert.SpikeConv
open Idealize.ShloMosaic.Pipeline (Dat)

variable (m : (ℓ : Loc nD τ sig) → Buf (Elt Ideal) ℓ) (ρ : Dev nD → PrngReg)

/-! ## The array as one function -/

/-- One entry of the result array: patch `(i, j, b)` against column `f` of the weights, bias `f` added, capped. -/
def cell (X : S256x256x16x9.Idx → EReal) (W : S9x128.Idx → EReal) (B : S1x128.Idx → EReal)
    (i : Fin 256) (j : Fin 256) (b : Fin 16) (f : Fin 128) : EReal :=
  capped ((∑ q : Fin 9, X (ix4 i j b q) * W (ix2 q f)) + B (ix2 0 f))

/-- The result array, from the patch array, the weights and the bias row. -/
def convArray (X : S256x256x16x9.Idx → EReal) (W : S9x128.Idx → EReal) (B : S1x128.Idx → EReal) : S256x256x16x128.Idx → EReal :=
  fun p => cell X W B ⟨(p 0).val, (p 0).isLt⟩ ⟨(p 1).val, (p 1).isLt⟩ ⟨(p 2).val, (p 2).isLt⟩ ⟨(p 3).val, (p 3).isLt⟩

/-- The tile's entry at any index of the tile. -/
theorem tile_at (x : Vec Ideal S8x256x8x9 .f32) (w : Vec Ideal S9x128 .f32) (b : Vec Ideal S1x128 .f32) (y : S8x256x8x128.Idx) :
    k0_pay1 (F := Ideal) x w b y = capped ((∑ q : Fin 9, x (ix4 (y 0) (y 1) (y 2) q) * w (ix2 q (y 3))) + b (ix2 0 (y 3))) := by
  obtain ⟨y0, y1, y2, f, rfl⟩ : ∃ (y0 : Fin 8) (y1 : Fin 256) (y2 : Fin 8) (f : Fin 128), y = ix4 y0 y1 y2 f :=
    ⟨y 0, y 1, y 2, y 3, eq_ix4 y⟩
  exact tile_entry x w b y0 y1 y2 f

/-- A tile entry computed from blocks that agree, tap by tap, with the arrays at an array position is the array's
    entry there. -/
theorem cell_of_blocks (X : S256x256x16x9.Idx → EReal) (W : S9x128.Idx → EReal) (B : S1x128.Idx → EReal)
    (x : S8x256x8x9.Idx → EReal) (w : S9x128.Idx → EReal) (b : S1x128.Idx → EReal) (y : S8x256x8x128.Idx) (p : S256x256x16x128.Idx)
    (hx : ∀ q : Fin 9, x (ix4 (y 0) (y 1) (y 2) q)
      = X (ix4 (⟨(p 0).val, (p 0).isLt⟩ : Fin 256) (⟨(p 1).val, (p 1).isLt⟩ : Fin 256) (⟨(p 2).val, (p 2).isLt⟩ : Fin 16) q))
    (hw : ∀ q : Fin 9, w (ix2 q (y 3)) = W (ix2 q (⟨(p 3).val, (p 3).isLt⟩ : Fin 128)))
    (hb : b (ix2 0 (y 3)) = B (ix2 0 (⟨(p 3).val, (p 3).isLt⟩ : Fin 128))) :
    capped ((∑ q : Fin 9, x (ix4 (y 0) (y 1) (y 2) q) * w (ix2 q (y 3))) + b (ix2 0 (y 3))) = convArray X W B p := by
  unfold convArray cell
  rw [hb]
  refine congrArg capped (congrArg (· + _) (Finset.sum_congr rfl fun q _ => ?_))
  rw [hx q, hw q]

/-! ## The blocks, read off the arrays -/

/-- An element of the patch block at point `t` is the patch array's element at block position times block size plus the
    element's coordinate, axis by axis. -/
theorem patch_block (c : Dev nD) (t : Fin cfg0.N) (j : S8x256x8x9.Idx) (k : S256x256x16x9.Idx)
    (h0 : win0_0.index t (0 : Fin 4) * 8 + 1 * (j 0).val = (k 0).val)
    (h1 : win0_0.index t (1 : Fin 4) * 256 + 1 * (j 1).val = (k 1).val)
    (h2 : win0_0.index t (2 : Fin 4) * 8 + 1 * (j 2).val = (k 2).val)
    (h3 : win0_0.index t (3 : Fin 4) * 9 + 1 * (j 3).val = (k 3).val) :
    blockAt m c 0 t j = entryAt m c main_v31 k := by
  show entryAt m c main_v31 (((cfg0.win 0).blk t).view.emb j) = entryAt m c main_v31 k
  refine congrArg _ (funext fun a => Fin.ext ?_)
  match a with
  | ⟨0, _⟩ => exact h0
  | ⟨1, _⟩ => exact h1
  | ⟨2, _⟩ => exact h2
  | ⟨3, _⟩ => exact h3

/-- The same for the weights' one block -/
theorem weights_block (c : Dev nD) (t : Fin cfg0.N) (j : S9x128.Idx) (k : S9x128.Idx)
    (h0 : win0_1.index t (0 : Fin 2) * 9 + 1 * (j 0).val = (k 0).val)
    (h1 : win0_1.index t (1 : Fin 2) * 128 + 1 * (j 1).val = (k 1).val) :
    blockAt m c 1 t j = entryAt m c main_v0 k := by
  show entryAt m c main_v0 (((cfg0.win 1).blk t).view.emb j) = entryAt m c main_v0 k
  refine congrArg _ (funext fun a => Fin.ext ?_)
  match a with
  | ⟨0, _⟩ => exact h0
  | ⟨1, _⟩ => exact h1

/-- and for the bias row's. -/
theorem bias_block (c : Dev nD) (t : Fin cfg0.N) (j : S1x128.Idx) (k : S1x128.Idx)
    (h0 : win0_2.index t (0 : Fin 2) * 1 + 1 * (j 0).val = (k 0).val)
    (h1 : win0_2.index t (1 : Fin 2) * 128 + 1 * (j 1).val = (k 1).val) :
    blockAt m c 2 t j = entryAt m c main_v11 k := by
  show entryAt m c main_v11 (((cfg0.win 2).blk t).view.emb j) = entryAt m c main_v11 k
  refine congrArg _ (funext fun a => Fin.ext ?_)
  match a with
  | ⟨0, _⟩ => exact h0
  | ⟨1, _⟩ => exact h1

/-! ## The block positions, decided over the grid -/

/-- At every point the patch block sits where the output tile sits on the row and batch axes, every other block
    position is zero, and the tile's positions stay within 32 row blocks and 2 batch blocks. -/
theorem positions : ∀ t : Fin cfg0.N,
    win0_0.index t (0 : Fin 4) = win0_3.index t (0 : Fin 4) ∧ win0_0.index t (1 : Fin 4) = 0
    ∧ win0_0.index t (2 : Fin 4) = win0_3.index t (2 : Fin 4) ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 4) = 0 ∧ win0_3.index t (3 : Fin 4) = 0
    ∧ win0_3.index t (0 : Fin 4) ≤ 31 ∧ win0_3.index t (2 : Fin 4) ≤ 1 :=
  (by decide +kernel : ∀ t : Fin grid0.N, _)

/-- Every pair of a row block and a batch block is some point's. -/
theorem positions_onto : ∀ (q0 : Fin 32) (q2 : Fin 2), ∃ t : Fin cfg0.N, win0_3.index t = ![q0.val, 0, q2.val, 0] :=
  (by decide +kernel : ∀ (q0 : Fin 32) (q2 : Fin 2), ∃ t : Fin grid0.N, win0_3.index t = ![q0.val, 0, q2.val, 0])

end Cert.KernelIdeal.ConvValue

end
-- ==== Proof.IdealArray.lean ====
/-
  The kernel's result array after the run, and the program's result.

  Grid point `t` handles eight image rows and eight batch entries. The tile it writes back is, entry by entry, the capped
  affine image of the patches at the array positions the tile covers: it is block `t` of the one function of the patch
  array, the weights and the bias row that Proof/IdealBlocks.lean names. The 32 × 2 tiles cover the 256 × 256 × 16 × 128
  array — the tile covering row `r` and batch entry `b` is the one at block position `(r / 8, b / 8)` —, so after the run the
  array holds that function everywhere, and the line after the region reads it as 16 × 256 × 256 × 128.
-/
import proofs.«173945_j26104811225508_2_alg».proof.Proof.IdealBlocks

set_option maxRecDepth 16384

noncomputable section

namespace Cert.KernelIdeal.ConvValue

open Cert.KernelIdeal Cert.KernelIdeal.Gen Cert.KernelIdeal.Conv
open Idealize.ShloMosaic Idealize.ShloMosaic.TcCoe Idealize.ShloMosaic.ValueIdx Idealize.SL.Sem Idealize.ShloMosaic.StableHlo
open Cert.SpikeConv
open Idealize.ShloMosaic.Pipeline (Dat)

variable (m : (ℓ : Loc nD τ sig) → Buf (Elt Ideal) ℓ) (ρ : Dev nD → PrngReg)

/-! ## What a point writes back -/

theorem zero4 : (![0, 0, 0, 0] : Fin 4 → Nat) = fun _ => 0 := funext fun a => by fin_cases a <;> rfl
theorem zero2 : (![0, 0] : Fin 2 → Nat) = fun _ => 0 := funext fun a => by fin_cases a <;> rfl

section
attribute [local irreducible] convArray k0_pay1

/-- WHAT POINT `t` WRITES BACK is block `t` of the result array as a function of the arrays the region finds. -/
theorem written_back (c : Dev nD) (t : Fin cfg0.N) :
    (tiles m 0 c).flushed 3 t = ((cfg0.win 3).blk t).view.read (Elt Ideal)
      (convArray (entryAt m c main_v31) (entryAt m c main_v0) (entryAt m c main_v11)) := by
  show (cfg0.win 3).cut (grid0.coords t) ((tiles m 0 c).after 3 t) = _
  rw [left_3]
  unfold tileAfter
  rw [View.canon_unit_zero zero4]
  simp only [View.ld_unit_zero (S := S8x256x8x9) zero4, View.ld_unit_zero (S := S9x128) zero2, View.ld_unit_zero (S := S1x128) zero2]
  obtain ⟨e00, e01, e02, e03, e10, e11, e20, e21, e31, e33, b0, b2⟩ := positions t
  funext y
  show k0_pay1 (F := Ideal) (blockAt m c 0 t) (blockAt m c 1 t) (blockAt m c 2 t) y
    = convArray (entryAt m c main_v31) (entryAt m c main_v0) (entryAt m c main_v11) (((cfg0.win 3).blk t).view.emb y)
  refine (tile_at (blockAt m c 0 t) (blockAt m c 1 t) (blockAt m c 2 t) y).trans ?_
  refine cell_of_blocks (entryAt m c main_v31) (entryAt m c main_v0) (entryAt m c main_v11)
    (blockAt m c 0 t) (blockAt m c 1 t) (blockAt m c 2 t) y (((cfg0.win 3).blk t).view.emb y) ?_ ?_ ?_
  · intro q
    refine patch_block m c t _ _ ?_ ?_ ?_ ?_
    · show win0_0.index t (0 : Fin 4) * 8 + 1 * (y 0).val = win0_3.index t (0 : Fin 4) * 8 + 1 * (y 0).val
      rw [e00]
    · show win0_0.index t (1 : Fin 4) * 256 + 1 * (y 1).val = win0_3.index t (1 : Fin 4) * 256 + 1 * (y 1).val
      rw [e01, e31]
    · show win0_0.index t (2 : Fin 4) * 8 + 1 * (y 2).val = win0_3.index t (2 : Fin 4) * 8 + 1 * (y 2).val
      rw [e02]
    · show win0_0.index t (3 : Fin 4) * 9 + 1 * q.val = q.val
      rw [e03]; omega
  · intro q
    refine weights_block m c t _ _ ?_ ?_
    · show win0_1.index t (0 : Fin 2) * 9 + 1 * q.val = q.val
      rw [e10]; omega
    · show win0_1.index t (1 : Fin 2) * 128 + 1 * (y 3).val = win0_3.index t (3 : Fin 4) * 128 + 1 * (y 3).val
      rw [e11, e33]
  · refine bias_block m c t _ _ ?_ ?_
    · show win0_2.index t (0 : Fin 2) * 1 + 1 * 0 = 0
      rw [e20]
    · show win0_2.index t (1 : Fin 2) * 128 + 1 * (y 3).val = win0_3.index t (3 : Fin 4) * 128 + 1 * (y 3).val
      rw [e21, e33]

end

/-! ## The tiles cover the array -/

/-- An index of the array is in point `t`'s tile iff each coordinate is in the tile's range on its axis. -/
theorem in_tile (t : Fin cfg0.N) (i : S256x256x16x128.Idx) :
    i ∈ ((cfg0.win 3).blk t).view.set ↔ ∀ a : Fin 4, win0_3.index t a * S8x256x8x128.size a ≤ (i a).val
      ∧ (i a).val < win0_3.index t a * S8x256x8x128.size a + S8x256x8x128.size a := by
  show i ∈ ((View.whole main_v32).slice (win0_3.rect t)).set ↔ _
  rw [View.set_slice_whole, Rect.mem_set_unit]
  exact Iff.rfl

/-- Every index of the array is in the tile of the point at its row block and batch block. -/
theorem covered (i : S256x256x16x128.Idx) :
    ∃ t : Fin cfg0.N, (cfg0.win 3).flush t = true ∧ i ∈ ((cfg0.win 3).blk t).view.set := by
  have hi0 : (i 0).val < 256 := (i 0).isLt
  have hi1 : (i 1).val < 256 := (i 1).isLt
  have hi2 : (i 2).val < 16 := (i 2).isLt
  have hi3 : (i 3).val < 128 := (i 3).isLt
  obtain ⟨t, ht⟩ := positions_onto ⟨(i 0).val / 8, by omega⟩ ⟨(i 2).val / 8, by omega⟩
  have q0 : win0_3.index t (0 : Fin 4) = (i 0).val / 8 := congrFun ht 0
  have q1 : win0_3.index t (1 : Fin 4) = 0 := congrFun ht 1
  have q2 : win0_3.index t (2 : Fin 4) = (i 2).val / 8 := congrFun ht 2
  have q3 : win0_3.index t (3 : Fin 4) = 0 := congrFun ht 3
  refine ⟨t, flush0_3 t, ?_⟩
  rw [in_tile]
  intro a
  match a with
  | ⟨0, _⟩ => show win0_3.index t (0 : Fin 4) * 8 ≤ (i 0).val ∧ (i 0).val < win0_3.index t (0 : Fin 4) * 8 + 8; omega
  | ⟨1, _⟩ => show win0_3.index t (1 : Fin 4) * 256 ≤ (i 1).val ∧ (i 1).val < win0_3.index t (1 : Fin 4) * 256 + 256; omega
  | ⟨2, _⟩ => show win0_3.index t (2 : Fin 4) * 8 ≤ (i 2).val ∧ (i 2).val < win0_3.index t (2 : Fin 4) * 8 + 8; omega
  | ⟨3, _⟩ => show win0_3.index t (3 : Fin 4) * 128 ≤ (i 3).val ∧ (i 3).val < win0_3.index t (3 : Fin 4) * 128 + 128; omega

/-- THE ARRAY after the run. -/
theorem result_array (c : Dev nD) :
    (tiles m 0 c).arrAt 3 cfg0.N = convArray (entryAt m c main_v31) (entryAt m c main_v0) (entryAt m c main_v11) :=
  (tiles m 0 c).arrAt_eq_of_cover 3 _ (fun t _ => written_back m c t) covered

/-! ## The program's result -/

/-- After the line that follows the region the result buffer holds the array read as 16 × 256 × 256 × 128. -/
theorem result_reshaped (c : Dev nD) :
    Pipeline.afterTail₀ cfgs (tiles m) 0 (entryVal m) [hostOps1] c main_v33
      = shapeCast S16x256x256x128 (convArray (entryAt m c main_v31) (entryAt m c main_v0) (entryAt m c main_v11))
          Facts₀.shapeCasts_S256x256x16x128_S16x256x256x128 := by
  unfold Pipeline.afterTail₀
  show StableHlo.after hostOps1 _ (Proc.devRef .tc main_v33) = _
  after_results
  have e : Pipeline.withArrays (cfgs 0).spec c (entryVal m c) (fun w => (tiles m 0 c).arrAt w (cfgs 0).N) (Proc.devRef .tc main_v32)
      = convArray (entryAt m c main_v31) (entryAt m c main_v0) (entryAt m c main_v11) :=
    (Pipeline.withArrays_arr spec0 launch0.win.arr_inj c _ _ 3).trans (result_array m c)
  rw [e]
  rfl

/-- THE RUN, READ: the program ends with its result at the reshaped array and its arguments as launched. -/
theorem run : θ_run defs (onTc (τ := τ) (main (F := Ideal))) ⟨m, fun _ => 0, ρ⟩ fun r => ∀ c : Dev nD,
      r.2.mem ((c.tc : Thread nD τ).loc main_v33)
        = shapeCast S16x256x256x128 (convArray (entryAt m c main_v31) (entryAt m c main_v0) (entryAt m c main_v11))
            Facts₀.shapeCasts_S256x256x16x128_S16x256x256x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v33 (Pipeline.mem_restRefs_of main_v33 (by decide) (by decide))).trans (result_reshaped m c),
     ((h c).2 main_arg0 (Pipeline.mem_restRefs_of main_arg0 (by decide) (by decide))).trans (exit_arg0 m (tiles m) c),
     ((h c).2 main_arg1 (Pipeline.mem_restRefs_of main_arg1 (by decide) (by decide))).trans (exit_arg1 m (tiles m) c),
     ((h c).2 main_arg2 (Pipeline.mem_restRefs_of main_arg2 (by decide) (by decide))).trans (exit_arg2 m (tiles m) c)⟩) (run_main m ρ)

end Cert.KernelIdeal.ConvValue

end
-- ==== Proof.LibRowReshape.lean ====
/-
  A vector [b] reshaped to a one-row matrix [1, b], read at an index written by coordinates: the row's entry j is the
  vector's entry j.  General lemma: any element type, any extent.
-/
import Idealize.ShloMosaic.Lib.Pipeline.Value
import Idealize.ShloMosaic.Lib.ValueIdx

namespace Cert.LibRowReshape

open Idealize.ShloMosaic Idealize.ShloMosaic.ValueIdx

/-- A vector reshaped to a one-row matrix reads, at (0, j), the vector's entry j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu]
    omega)

end Cert.LibRowReshape
-- ==== Proof.IdealStages.lean ====
/-
  The three arrays the kernel is given, as functions of the program's arguments.

  The lines before the region compute the weight matrix and the patch array by the very operations the reference
  uses for them — the filters reinterpreted as 9 × 128; nine shifted windows of every image, each given a last axis of
  length one, joined along it and transposed —, so each of the two is the reference's own stage of the same argument.
  The bias row is the reference's threshold, one minus the first row of the delay table, with the earliest spike time
  folded in: zero is added to it and zero times the weights' column sums is taken from it, and the result is read as a
  one-row matrix. Entry `f` of that row is therefore the threshold's entry `f`, whatever the column sums are.
-/
import proofs.«173945_j26104811225508_2_alg».proof.Proof.IdealHost
import proofs.«173945_j26104811225508_2_alg».proof.Proof.Gen.ReferenceIdeal.Read
import proofs.«173945_j26104811225508_2_alg».proof.Proof.SpikeEntry
import proofs.«173945_j26104811225508_2_alg».proof.Proof.LibRowReshape
import Idealize.ShloMosaic.Lib.Pipeline.Value
import Idealize.ShloMosaic.Lib.StableHlo.Run

set_option maxRecDepth 16384

noncomputable section

namespace Cert.KernelIdeal.ConvValue

open Cert.KernelIdeal Cert.KernelIdeal.Gen Cert.KernelIdeal.Conv
open Idealize.ShloMosaic Idealize.ShloMosaic.TcCoe Idealize.ShloMosaic.ValueIdx Idealize.SL.Sem Idealize.ShloMosaic.StableHlo
open Cert.SpikeConv

variable (m : (ℓ : Loc nD τ sig) → Buf (Elt Ideal) ℓ)

/-- The zero vector of length 128, as the program builds it. -/
def zeros128 : FVec Ideal S128 .f32 :=
  broadcastInDim S128 ![] Facts₀.bcast_S_S128 (constant (F := Ideal) S_ .f32 0x00000000#32)

/-- The bias row from the threshold and the weights: the threshold plus zero, minus zero times the weights' column
    sums, read as a one-row matrix. -/
def biasRow (thr : FVec Ideal S128 .f32) (W : FVec Ideal S9x128 .f32) : FVec Ideal S1x128 .f32 :=
  shapeCast S1x128
    (subf (addf thr zeros128)
      (mulf zeros128 (Host.reduceAdd (F := Ideal) W (constant (F := Ideal) S_ .f32 0x00000000#32) Facts₀.reducesTo_S9x128_S128_d0 Facts₀.h_S_)))
    Facts₀.shapeCasts_S128_S1x128

set_option maxHeartbeats 2000000 in
/-- The weight matrix the region finds is the reference's reinterpretation of the filters. -/
theorem weights_entry (c : Dev nD) :
    entryAt m c main_v0 = Cert.ReferenceIdeal.Read.val_main_v0 (F := Ideal) (m ((c : Thread nD τ).loc main_arg1)) := by
  show StableHlo.after hostOps0 (fun b => m (c, b)) (Proc.devRef .tc main_v0) = _
  unfold Cert.ReferenceIdeal.Read.val_main_v0
  after_results_simp <;> rfl

set_option maxHeartbeats 2000000 in
/-- The patch array the region finds is the reference's patch array of the images. -/
theorem patches_entry (c : Dev nD) :
    entryAt m c main_v31 = Cert.ReferenceIdeal.Read.val_main_v20 (F := Ideal) (m ((c : Thread nD τ).loc main_arg0)) := by
  show StableHlo.after hostOps0 (fun b => m (c, b)) (Proc.devRef .tc main_v31) = _
  unfold Cert.ReferenceIdeal.Read.val_main_v20 Cert.ReferenceIdeal.Read.val_main_v19
    Cert.ReferenceIdeal.Read.val_main_v18 Cert.ReferenceIdeal.Read.val_main_v17 Cert.ReferenceIdeal.Read.val_main_v16
    Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_v10
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
  after_results_simp <;> rfl

set_option maxHeartbeats 2000000 in
/-- The bias row the region finds is `biasRow` of the reference's threshold and weight matrix. -/
theorem bias_entry (c : Dev nD) :
    entryAt m c main_v11 = biasRow (Cert.ReferenceIdeal.Read.val_main_v25 (F := Ideal) (m ((c : Thread nD τ).loc main_arg2)))
      (Cert.ReferenceIdeal.Read.val_main_v0 (F := Ideal) (m ((c : Thread nD τ).loc main_arg1))) := by
  show StableHlo.after hostOps0 (fun b => m (c, b)) (Proc.devRef .tc main_v11) = _
  unfold biasRow zeros128 Cert.ReferenceIdeal.Read.val_main_v25 Cert.ReferenceIdeal.Read.val_main_v24 Cert.ReferenceIdeal.Read.val_main_cst
    Cert.ReferenceIdeal.Read.val_main_v23 Cert.ReferenceIdeal.Read.val_main_v22 Cert.ReferenceIdeal.Read.val_main_v0
  after_results_simp <;> rfl

/-- Every entry of the zero vector is zero. -/
theorem zeros128_apply (f : Fin 128) : zeros128 (ix1 f) = 0 := by
  unfold zeros128
  exact (broadcastInDim_apply _ Facts₀.bcast_S_S128 _ (ix1 f) ix0 (fun a => a.elim0)).trans zero_word

/-- ENTRY `f` OF THE BIAS ROW is the threshold's entry `f`: the folded zeros change nothing. -/
theorem biasRow_apply (thr : FVec Ideal S128 .f32) (W : FVec Ideal S9x128 .f32) (f : Fin 128) :
    biasRow thr W (ix2 (0 : Fin 1) f) = thr (ix1 f) := by
  unfold biasRow
  refine (Cert.LibRowReshape.shapeCast_b_1b_apply _ Facts₀.shapeCasts_S128_S1x128 (0 : Fin 1) f).trans ?_
  show thr (ix1 f) + zeros128 (ix1 f) - zeros128 (ix1 f) * _ = thr (ix1 f)
  rw [zeros128_apply]
  exact threshold_fold _ _

end Cert.KernelIdeal.ConvValue

end
-- ==== Proof.IdealResult.lean ====
/-
  The kernel program's result is the spiking convolution.

  The result array read as 16 × 256 × 256 × 128 has, at position `p`, the array's entry at the `(i, j, b, f)` whose
  row-major position among 256 × 256 × 16 × 128 is `p`; that entry is the nine taps of patch `(i, j, b)` against filter
  `f`, plus entry `f` of the bias row, capped. The bias row's entry is the threshold's, and the patch array and the
  weights are the reference's own stages of the arguments: so the program ends with the spiking convolution of those
  stages, the arguments unchanged.
-/
import proofs.«173945_j26104811225508_2_alg».proof.Proof.IdealArray
import proofs.«173945_j26104811225508_2_alg».proof.Proof.IdealStages

set_option maxRecDepth 16384

noncomputable section

namespace Cert.KernelIdeal.ConvValue

open Cert.KernelIdeal Cert.KernelIdeal.Gen Cert.KernelIdeal.Conv
open Idealize.ShloMosaic Idealize.ShloMosaic.TcCoe Idealize.ShloMosaic.ValueIdx Idealize.SL.Sem
open Cert.SpikeConv

/-- The reshaped array is the spiking convolution, once the bias row's entries are the threshold's. -/
theorem reshaped_eq (X : S256x256x16x9.Idx → EReal) (W : S9x128.Idx → EReal) (thr : S128.Idx → EReal) (B : S1x128.Idx → EReal)
    (hB : ∀ f : Fin 128, B (ix2 (0 : Fin 1) f) = thr (ix1 f)) :
    shapeCast S16x256x256x128 (convArray X W B) Facts₀.shapeCasts_S256x256x16x128_S16x256x256x128 = spikes X W thr := by
  funext o
  have hp := pos_lt o
  refine (shapeCast_apply _ Facts₀.shapeCasts_S256x256x16x128_S16x256x256x128 o (ix4 (rowOf o) (colOf o) (batchOf o) (filterOf o)) ?_).trans ?_
  · rw [Shape.rowMajor_val_four, Shape.rowMajor_val_four]
    show ((pos o / 524288 * 256 + pos o / 2048 % 256) * 16 + pos o / 128 % 16) * 128 + pos o % 128 = pos o
    omega
  · show capped ((∑ q : Fin 9, X (ix4 (rowOf o) (colOf o) (batchOf o) q) * W (ix2 q (filterOf o))) + B (ix2 (0 : Fin 1) (filterOf o))) = _
    rw [hB]
    rfl

variable (m : (ℓ : Loc nD τ sig) → Buf (Elt Ideal) ℓ) (ρ : Dev nD → PrngReg)

/-- THE KERNEL PROGRAM'S RUN: it ends with its result at the spiking convolution of the reference's patch array, weight
    matrix and threshold of the arguments, and the arguments as launched. -/
theorem run_spikes : θ_run defs (onTc (τ := τ) (main (F := Ideal))) ⟨m, fun _ => 0, ρ⟩ fun r => ∀ c : Dev nD,
      r.2.mem ((c.tc : Thread nD τ).loc main_v33)
        = spikes (Cert.ReferenceIdeal.Read.val_main_v20 (F := Ideal) (m ((c.tc : Thread nD τ).loc main_arg0)))
            (Cert.ReferenceIdeal.Read.val_main_v0 (F := Ideal) (m ((c.tc : Thread nD τ).loc main_arg1)))
            (Cert.ReferenceIdeal.Read.val_main_v25 (F := Ideal) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      rw [patches_entry, weights_entry, bias_entry]
      exact reshaped_eq _ _ _ _ (fun f => biasRow_apply _ _ f)), (h c).2⟩) (run m ρ)

end Cert.KernelIdeal.ConvValue

end
-- ==== Proof.RefSpikes.lean ====
/-
  The reference's result, entry by entry.

  The reference flattens the patch array to one row per patch — row `n` is the patch whose `(i, j, b)` has row-major
  position `n` —, takes zero from every tap, multiplies by the weights, adds the threshold along the rows and zero to
  everything, caps every entry at the latest spike time, and reads the rows as a 16 × 256 × 256 × 128 array. The entry at
  position `p` of that array is row `p / 128`, column `p % 128`; row `p / 128` is the patch at
  `(p / 524288, p / 2048 % 256, p / 128 % 16)`. So the entry is the spiking convolution's: the nine taps against the
  filter, plus the filter's threshold, capped — the two folded zeros changing nothing.
-/
import proofs.«173945_j26104811225508_2_alg».proof.Proof.Gen.ReferenceIdeal.Read
import proofs.«173945_j26104811225508_2_alg».proof.Proof.SpikeEntry

noncomputable section

namespace Cert.ReferenceIdeal.RefSpikes

open Cert.ReferenceIdeal Cert.ReferenceIdeal.Read
open Idealize.ShloMosaic Idealize.ShloMosaic.ValueIdx Cert.SpikeConv

/-- The row of products at the entry's position: the patch's nine taps against the filter's column. -/
theorem products_at (x0 : (⟨S16x258x258, .f32⟩ : BufTy).Contents (Elt Ideal)) (x1 : (⟨S128x1x3x3, .f32⟩ : BufTy).Contents (Elt Ideal))
    (o : S16x256x256x128.Idx) :
    val_main_v28 (F := Ideal) x0 x1 (idx_main_v37 o)
      = ∑ q : Fin 9, val_main_v20 (F := Ideal) x0 (ix4 (rowOf o) (colOf o) (batchOf o) q) * val_main_v0 (F := Ideal) x1 (ix2 q (filterOf o)) := by
  rw [val_main_v28_apply]
  refine Finset.sum_congr rfl fun q _ => ?_
  have hq : q.val < 9 := q.isLt
  have hp := pos_lt o
  have hl : idx_main_v21 (lidx_main_v28 (idx_main_v37 o) q) = ix4 (rowOf o) (colOf o) (batchOf o) q :=
    funext fun a => Fin.ext (by
      match a with
      | ⟨0, _⟩ => show (pos o / 128 * 9 + q.val) / 36864 = pos o / 524288; omega
      | ⟨1, _⟩ => show (pos o / 128 * 9 + q.val) / 144 % 256 = pos o / 2048 % 256; omega
      | ⟨2, _⟩ => show (pos o / 128 * 9 + q.val) / 9 % 16 = pos o / 128 % 16; omega
      | ⟨3, _⟩ => show (pos o / 128 * 9 + q.val) % 9 = q.val; omega)
  have hr : ridx_main_v28 (idx_main_v37 o) q = ix2 q (filterOf o) :=
    funext fun a => Fin.ext (by
      match a with
      | ⟨0, _⟩ => rfl
      | ⟨1, _⟩ => rfl)
  rw [val_main_v27_apply, val_main_v21_apply, val_main_v26_apply, hl, hr]
  show (val_main_v20 (F := Ideal) x0 _ - FloatOps.ofBits (F := Ideal) .f32 0x00000000#32) * _ = _
  rw [zero_word, tap_fold]

/-- The threshold row at the entry's position is the threshold of the entry's filter. -/
theorem threshold_at (x2 : (⟨S9x128, .f32⟩ : BufTy).Contents (Elt Ideal)) (o : S16x256x256x128.Idx) :
    val_main_v30 (F := Ideal) x2 (idx_main_v37 o) = val_main_v25 (F := Ideal) x2 (ix1 (filterOf o)) := by
  rw [val_main_v30_apply, val_main_v29_apply]
  refine congrArg _ (funext fun a => Fin.ext ?_)
  match a with
  | ⟨0, _⟩ => rfl

/-- THE REFERENCE IS THE SPIKING CONVOLUTION of its own patch array, weight matrix and threshold. -/
theorem result_eq (x0 : (⟨S16x258x258, .f32⟩ : BufTy).Contents (Elt Ideal)) (x1 : (⟨S128x1x3x3, .f32⟩ : BufTy).Contents (Elt Ideal))
    (x2 : (⟨S9x128, .f32⟩ : BufTy).Contents (Elt Ideal)) :
    val_main_v37 (F := Ideal) x0 x1 x2
      = spikes (val_main_v20 (F := Ideal) x0) (val_main_v0 (F := Ideal) x1) (val_main_v25 (F := Ideal) x2) := by
  funext o
  rw [val_main_v37_apply, val_main_v36_apply, val_main_v35_apply, val_main_v33_apply, val_main_v31_apply,
    products_at, threshold_at]
  show Scalar.select (FloatOps.cmpf .olt (_ + _ + FloatOps.ofBits (F := Ideal) .f32 0x00000000#32) tMax)
      (_ + _ + FloatOps.ofBits (F := Ideal) .f32 0x00000000#32) tMax = _
  rw [zero_word, sum_fold]
  rfl

end Cert.ReferenceIdeal.RefSpikes

end
-- ==== Proof.lean ====
/-
  The certificate of a spiking 3 × 3 convolution: a tiled kernel against its plain reference.

  Both programs turn sixteen 258 × 258 images of spike times into, for every 3 × 3 window of every image and each of 128
  filters, the sum of the window's nine taps times the filter's weights plus the filter's threshold (one minus a delay),
  capped at the latest spike time; both list the windows by image row, image column, batch entry, and read the list as
  a 16 × 256 × 256 × 128 array. The kernel computes it tile by tile — eight image rows and eight batch entries at a time,
  one matrix product per tile — from a patch array, a weight matrix and a bias row that the lines before it prepare; the
  reference computes it as one matrix product over all the patches.

  The frames: each kernel program is its host lines around one region, the tile's triple holds at every grid point, and
  no line writes an argument (Proof/BitsRun.lean for the word-level program, Proof/IdealRun.lean for the idealized one);
  the reference's frame is its run with the result dropped. The idealization rewrote nothing, so it preserves the
  program trivially. On the extended reals the kernel program ends with the spiking convolution of the reference's own
  patch array, weight matrix and threshold (Proof/IdealResult.lean, over the tile's value Proof/IdealTileValue.lean, the
  tiles' cover Proof/IdealArray.lean and the prepared arrays Proof/IdealStages.lean), and so does the reference
  (Proof/RefSpikes.lean): a change of float format is the identity there, a product into a zero accumulator is the
  plain sum, and the earliest spike time, zero, folds away on both sides by `x − 0 = x`, `x + 0 = x`, `0 · s = 0`, which
  hold for every extended real — the precondition is not used.
-/
import proofs.«173945_j26104811225508_2_alg».proof.Defs
import proofs.«173945_j26104811225508_2_alg».proof.Proof.BitsRun
import proofs.«173945_j26104811225508_2_alg».proof.Proof.IdealRun
import proofs.«173945_j26104811225508_2_alg».proof.Proof.IdealResult
import proofs.«173945_j26104811225508_2_alg».proof.Proof.RefSpikes
import proofs.«173945_j26104811225508_2_alg».proof.Proof.Gen.Kernel
import proofs.«173945_j26104811225508_2_alg».proof.Proof.Gen.KernelIdeal
import proofs.«173945_j26104811225508_2_alg».proof.Proof.Gen.ReferenceIdeal
import proofs.«173945_j26104811225508_2_alg».proof.Proof.Gen.ReferenceIdeal.Run
import proofs.«173945_j26104811225508_2_alg».proof.Proof.Gen.ReferenceIdeal.Read
import proofs.«173945_j26104811225508_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Conv.frame m ρ

/-- So does the idealized one. -/
theorem frame_kernel_ideal : Cert.frame_KernelIdeal := fun m ρ _ => Cert.KernelIdeal.Conv.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the spiking convolution of the same
    patch array, weight matrix and threshold. -/
theorem algebraic : Cert.algebraic_KernelIdeal_ReferenceIdeal := by
  intro m ρ m' ρ' _ hagree
  refine ⟨_, Cert.KernelIdeal.ConvValue.run_spikes m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefSpikes.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
